-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S1x128 : Shape := ⟨2, ![1, 128]⟩

abbrev nBuf : Space → Nat
  | .hbm => 108
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S128x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S128x128, .f32⟩
  | .local _ .vmem, ⟨17, _⟩ => ⟨S128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x128, .f32⟩
  | .local _ .vmem, ⟨45, _⟩ => ⟨S4000x128, .f32⟩
  | .local _ .vmem, ⟨46, _⟩ => ⟨S128x128, .f32⟩
  | .local _ .vmem, ⟨47, _⟩ => ⟨S128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S128x128, .f32⟩
  | .local _ .vmem, ⟨57, _⟩ => ⟨S128, .f32⟩
  | .local _ .vmem, ⟨58, _⟩ => ⟨S4000x128, .f32⟩
  | .local _ .vmem, ⟨59, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_17 : Ref sig .tc := ⟨.hbm, 94, rfl⟩
abbrev main_v69 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem4_0 : DmaSem sig := 47
abbrev cc4_sem5_0 : DmaSem sig := 48
abbrev cc4_sem5_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S100000x128.size a
  hwx5_5 : ∀ i : grid5.Coords, EltTy.bits .f32 = 32 ∨ (Rect.block (s := S100000x128) S4000x128.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg3) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg3) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v78) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v13) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg3) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 163
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S1x1600000, .i32⟩
  | 5 => ⟨S1600000, .i32⟩
  | 6 => ⟨S1x1600000, .i32⟩
  | 7 => ⟨S1600000, .i32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S_, .f32⟩
  | 16 => ⟨S100000, .f32⟩
  | 17 => ⟨S100000, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x128, .f32⟩
  | 34 => ⟨S128x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000x128, .f32⟩
  | 57 => ⟨S100000x128, .f32⟩
  | 58 => ⟨S128x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S100000x128, .f32⟩
  | 82 => ⟨S128x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x128, .f32⟩
  | 105 => ⟨S100000x128, .f32⟩
  | 106 => ⟨S128x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S128x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S100000x128, .f32⟩
  | 26 => ⟨S128x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call2_cst : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call3_cst : Ref sig .tc := ⟨.hbm, 87, rfl⟩
abbrev main_call3_v0 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call4_cst : Ref sig .tc := ⟨.hbm, 111, rfl⟩
abbrev main_call4_v0 : Ref sig .tc := ⟨.hbm, 112, rfl⟩
abbrev main_v84 : Ref sig .tc := ⟨.hbm, 113, rfl⟩
abbrev main_v85 : Ref sig .tc := ⟨.hbm, 114, rfl⟩
abbrev main_c_13 : Ref sig .tc := ⟨.hbm, 115, rfl⟩
abbrev main_v86 : Ref sig .tc := ⟨.hbm, 116, rfl⟩
abbrev main_v87 : Ref sig .tc := ⟨.hbm, 117, rfl⟩
abbrev main_c_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_15 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call5_cst : Ref sig .tc := ⟨.hbm, 135, rfl⟩
abbrev main_call5_v0 : Ref sig .tc := ⟨.hbm, 136, rfl⟩
abbrev main_v103 : Ref sig .tc := ⟨.hbm, 137, rfl⟩
abbrev main_v104 : Ref sig .tc := ⟨.hbm, 138, rfl⟩
abbrev main_c_16 : Ref sig .tc := ⟨.hbm, 139, rfl⟩
abbrev main_v105 : Ref sig .tc := ⟨.hbm, 140, rfl⟩
abbrev main_v106 : Ref sig .tc := ⟨.hbm, 141, rfl⟩
abbrev main_c_17 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_18 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_call6_cst : Ref sig .tc := ⟨.hbm, 159, rfl⟩
abbrev main_call6_v0 : Ref sig .tc := ⟨.hbm, 160, rfl⟩
abbrev main_v122 : Ref sig .tc := ⟨.hbm, 161, rfl⟩
abbrev main_v123 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its RESULT named. @main is six launches of the same block-wise kernel among
  stretches of host operations; every weakly fair execution of it terminates without a fault, and at the end each
  buffer the program does not scope holds the contents the last boundary of the chain of segments assigns to it.
  The frame claim reads only the four argument arrays off that final state; here the result array is read off it
  too, so that the value of the program can be stated: the result is what the fold through the segments leaves in
  the last launch's output array.
-/
import proofs.«172677_j33947421507739_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the contents the
    last boundary gives it, and the four argument arrays end as launched. -/
theorem run_main : θ_run defs (onTc (τ := τ) (main (F := F))) ⟨m, fun _ => 0, ρ⟩ (fun r => ∀ c : Dev nD,
      r.2.mem ((c.tc : Thread nD τ).loc main_v79) = W14 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c)⟩)

end Cert.KernelIdeal.ValueRun

end
-- ==== Proof.Step.lean ====
/-
  One round of degree-normalised message passing on a graph of 100000 nodes with 128 features per node, as a
  function of whole arrays, entry by entry; and the one law by which "multiply by the reciprocal of the clipped
  in-degree" and "divide by the clipped in-degree" are the same extended real.

  For a node n and a feature h, with agg the neighbour sum, x the node features, wt a 128 x 128 matrix and b a bias:
      step  : x[n,h] + max( (sum over k of (agg[n,k] * inv[n,k]) * wt[k,h]) + b[h], 0 )
      stepRef : x[n,h] + max( (sum over k of (agg[n,k] / d[n]) * wt[k,h]) + b[h], 0 )
  where inv[n,k] = 1 / d[n]. On the extended reals a / d is a * d⁻¹ whenever d ≠ 0, and 1 / d is 1 * d⁻¹, so the two
  agree as soon as d is not zero — no finiteness of agg is needed, the infinities included. The clipped degree is
  max(1, deg), which is at least 1 and so never zero.
-/
import Idealize.ShloMosaic.PureOps.Ideal
import Idealize.ShloMosaic.Lib.ValueIdx

noncomputable section

namespace Cert.MsgStep

open Idealize.ShloMosaic Idealize.ShloMosaic.ValueIdx
open scoped BigOperators

/-- Node features: 100000 nodes by 128 features. -/
abbrev Nodes : Shape := ⟨2, ![100000, 128]⟩
/-- The square weight matrix. -/
abbrev Sq : Shape := ⟨2, ![128, 128]⟩
/-- One feature row. -/
abbrev Feat : Shape := ⟨1, ![128]⟩
/-- One value per node. -/
abbrev PerNode : Shape := ⟨1, ![100000]⟩

/-- Entry (n, h) of one round, with the degree normalisation given as an array `inv` of reciprocals. -/
def stepAt (agg inv x : Nodes.Idx → EReal) (wt : Sq.Idx → EReal) (b : Feat.Idx → EReal) (n : Fin 100000) (h : Fin 128) : EReal :=
  x (ix2 n h) + max ((∑ k : Fin 128, (agg (ix2 n k) * inv (ix2 n k)) * wt (ix2 k h)) + b (ix1 h)) 0

/-- One round as a whole array. -/
def step (agg inv x : Nodes.Idx → EReal) (wt : Sq.Idx → EReal) (b : Feat.Idx → EReal) : Nodes.Idx → EReal :=
  fun i => stepAt agg inv x wt b ⟨(i 0).val, idx2_lt0 i⟩ ⟨(i 1).val, idx2_lt1 i⟩

theorem step_ix2 (agg inv x : Nodes.Idx → EReal) (wt : Sq.Idx → EReal) (b : Feat.Idx → EReal) (n : Fin 100000) (h : Fin 128) :
    step agg inv x wt b (ix2 n h) = stepAt agg inv x wt b n h := rfl

/-- Entry (n, h) of one round, dividing the neighbour sum by the per-node divisor `d`. -/
def stepRefAt (agg : Nodes.Idx → EReal) (d : PerNode.Idx → EReal) (x : Nodes.Idx → EReal) (wt : Sq.Idx → EReal) (b : Feat.Idx → EReal)
    (n : Fin 100000) (h : Fin 128) : EReal :=
  x (ix2 n h) + max ((∑ k : Fin 128, Ideal.div (agg (ix2 n k)) (d (ix1 n)) * wt (ix2 k h)) + b (ix1 h)) 0

/-- The same round as a whole array, in the dividing form. -/
def stepRef (agg : Nodes.Idx → EReal) (d : PerNode.Idx → EReal) (x : Nodes.Idx → EReal) (wt : Sq.Idx → EReal) (b : Feat.Idx → EReal) :
    Nodes.Idx → EReal :=
  fun i => stepRefAt agg d x wt b ⟨(i 0).val, idx2_lt0 i⟩ ⟨(i 1).val, idx2_lt1 i⟩

theorem stepRef_ix2 (agg : Nodes.Idx → EReal) (d : PerNode.Idx → EReal) (x : Nodes.Idx → EReal) (wt : Sq.Idx → EReal) (b : Feat.Idx → EReal)
    (n : Fin 100000) (h : Fin 128) : stepRef agg d x wt b (ix2 n h) = stepRefAt agg d x wt b n h := rfl

/-- The array of reciprocals of a per-node divisor, one copy per feature: entry (n, k) is `one / d n`, where `one` is
    the value the two programs write for the literal 1.0. -/
def invOf (one : EReal) (d : PerNode.Idx → EReal) : Nodes.Idx → EReal :=
  fun i => Ideal.div one (d (ix1 ⟨(i 0).val, idx2_lt0 i⟩))

theorem invOf_ix2 (one : EReal) (d : PerNode.Idx → EReal) (n : Fin 100000) (k : Fin 128) :
    invOf one d (ix2 n k) = Ideal.div one (d (ix1 n)) := rfl

/-- Off zero the quotient is the product with the inverse, so multiplying by `1 / d` is dividing by `d`, at the
    infinities too. -/
theorem mul_one_div (a d : EReal) (hd : d ≠ 0) : a * Ideal.div 1 d = Ideal.div a d := by
  unfold Ideal.div
  rw [if_neg hd, if_neg hd, one_mul]

/-- The two forms of a round agree when no divisor is zero. -/
theorem stepRef_eq_step (agg : Nodes.Idx → EReal) (d : PerNode.Idx → EReal) (x : Nodes.Idx → EReal) (wt : Sq.Idx → EReal)
    (b : Feat.Idx → EReal) (hd : ∀ n, d n ≠ 0) : stepRef agg d x wt b = step agg (invOf 1 d) x wt b := by
  funext i
  show stepRefAt agg d x wt b _ _ = stepAt agg (invOf 1 d) x wt b _ _
  unfold stepRefAt stepAt
  refine congrArg (fun s => x _ + max (s + b _) 0) (Finset.sum_congr rfl fun k _ => ?_)
  rw [invOf_ix2, mul_one_div _ _ (hd _)]

/-- The literal 1.0 of the two programs is the real number one. -/
theorem one_f32 : Ideal.ofBits .f32 0x3F800000#32 = 1 := by
  simp [Ideal.ofBits, Ideal.ieee, -EReal.coe_mul]
  norm_num

/-- A value clipped from below at 1.0 is not zero. -/
theorem clip_ne_zero (u : EReal) : max (Ideal.ofBits .f32 0x3F800000#32) u ≠ 0 := by
  rw [one_f32]
  exact ne_of_gt (lt_of_lt_of_le zero_lt_one (le_max_left 1 u))

end Cert.MsgStep

end
-- ==== Proof.KernelHost.lean ====
/-
  The host side of the kernel program as pure functions of the edge list and the features: the source and
  destination rows of the edges, the neighbour sum (gather along the sources, scatter-add into the destinations),
  the in-degree clipped from below at 1 and its reciprocal spread over the 128 features, the transposed weights,
  and one round: features + max((neighbour sum * reciprocal degree) · transposed weights + bias, 0).
-/
import proofs.«172677_j33947421507739_1_alg».proof.Proof.Gen.KernelIdeal
import proofs.«172677_j33947421507739_1_alg».proof.Proof.Step

set_option maxRecDepth 16384

noncomputable section

namespace Cert.KernelIdeal.HostFns

open Idealize.ShloMosaic
open Cert.KernelIdeal Cert.KernelIdeal.Gen

/-- Node features, as a buffer's contents. -/
abbrev TNodes := (⟨S100000x128, .f32⟩ : BufTy).Contents (Elt Ideal)
/-- One integer per edge. -/
abbrev TEdges := (⟨S1600000, .i32⟩ : BufTy).Contents (Elt Ideal)

/-- The source node of every edge: row 0 of the edge list. -/
def rowOf (a1 : (⟨S2x1600000, .i32⟩ : BufTy).Contents (Elt Ideal)) : TEdges :=
  shapeCast _ (extractStridedSlice S1x1600000 ![0, 0] a1 slices_S2x1600000_S1x1600000_0_0) shapeCasts_S1x1600000_S1600000
/-- The destination node of every edge: row 1 of the edge list. -/
def colOf (a1 : (⟨S2x1600000, .i32⟩ : BufTy).Contents (Elt Ideal)) : TEdges :=
  shapeCast _ (extractStridedSlice S1x1600000 ![1, 0] a1 slices_S2x1600000_S1x1600000_1_0) shapeCasts_S1x1600000_S1600000

/-- The neighbour sum of the features `y`: the rows of `y` at the edges' sources (a negative source counted from
    the end), added into the edges' destinations. -/
def aggK (y : TNodes) (row col : TEdges) : TNodes :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 col)
    (Host.gather gather_S100000x128_S1600000x1_S1600000x128_1_0_n_n_0_1_1128 y
      (broadcastInDim S1600000x1 ![0] bcast_S1600000_S1600000x1_0
        (select (cmpi .slt row (broadcastInDim S1600000 ![] bcast_S_S1600000 (constantI S_ 32 0#32)))
          (addi row (broadcastInDim S1600000 ![] bcast_S_S1600000 (constantI S_ 32 100000#32))) row)))

/-- The in-degree of every node (one per edge, added into the edge's destination), clipped from below at 1. -/
def clipK (col : TEdges) : (⟨S100000, .f32⟩ : BufTy).Contents (Elt Ideal) :=
  maximumf (broadcastInDim S100000 ![] bcast_S_S100000 (id (constant (F := Ideal) S_ .f32 0x3F800000#32)))
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 col)
      (broadcastInDim S1600000 ![] bcast_S_S1600000 (constant (F := Ideal) S_ .f32 0x3F800000#32)))

/-- The reciprocal of the clipped in-degree, one copy per feature. -/
def invK (col : TEdges) : TNodes :=
  broadcastInDim S100000x128 ![0, 1] bcast_S100000x1_S100000x128_0_1
    (broadcastInDim S100000x1 ![0] bcast_S100000_S100000x1_0
      (Host.divf (F := Ideal) (broadcastInDim S100000 ![] bcast_S_S100000 (constant (F := Ideal) S_ .f32 0x3F800000#32)) (clipK col)))

/-- The transposed weight matrix. -/
def wtK (a2 : (⟨S128x128, .f32⟩ : BufTy).Contents (Elt Ideal)) : (⟨S128x128, .f32⟩ : BufTy).Contents (Elt Ideal) :=
  transpose S128x128 [1, 0] a2 transposes_S128x128_S128x128_1_0

/-- One round of the kernel program on the features `y`. -/
def roundK (row col : TEdges) (inv : TNodes) (wt : (⟨S128x128, .f32⟩ : BufTy).Contents (Elt Ideal))
    (b : (⟨S128, .f32⟩ : BufTy).Contents (Elt Ideal)) (y : TNodes) : TNodes :=
  Cert.MsgStep.step (aggK y row col) inv y wt b

end Cert.KernelIdeal.HostFns

end
-- ==== Proof.Stretch0.lean ====
/-
  The host operations before the first launch of the kernel program, read over any contents `Wg` they start from,
  in the three stretches the program's text has. The first takes the two rows of the edge list apart (sources,
  destinations), counts each node's incoming edges by adding a 1.0 per edge into its destination, and writes the
  constant 1.0. The second clips that count from below at 1.0. The third takes the reciprocal of the clipped count
  and spreads it over the 128 features, transposes the weight matrix, and forms the neighbour sum of the input
  features. None of them writes an argument array.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

/-! ## The first stretch: the edge rows and the in-degree -/

theorem s00_row : StableHlo.after (hostOps0 (F := Ideal)) Wg (Proc.devRef .tc main_v1) = rowOf (Wg (Proc.devRef .tc main_arg1)) := by
  after_results_simp <;> rfl
theorem s00_col : StableHlo.after (hostOps0 (F := Ideal)) Wg (Proc.devRef .tc main_v3) = colOf (Wg (Proc.devRef .tc main_arg1)) := by
  after_results_simp <;> rfl
theorem s00_deg : (StableHlo.after (hostOps0 (F := Ideal)) Wg (Proc.devRef .tc main_v7) : (⟨S100000, .f32⟩ : BufTy).Contents (Elt Ideal))
    = Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 (colOf (Wg (Proc.devRef .tc main_arg1))))
        (broadcastInDim S1600000 ![] bcast_S_S1600000 (constant (F := Ideal) S_ .f32 0x3F800000#32)) := by
  after_results_simp <;> rfl
theorem s00_one : (StableHlo.after (hostOps0 (F := Ideal)) Wg (Proc.devRef .tc main_cst_1) : (⟨S_, .f32⟩ : BufTy).Contents (Elt Ideal))
    = constant (F := Ideal) S_ .f32 0x3F800000#32 := by
  after_results_simp <;> rfl
theorem keep00_main_arg0 : StableHlo.after (hostOps0 (F := Ideal)) Wg (Proc.devRef .tc main_arg0) = Wg (Proc.devRef .tc main_arg0) := by
  after_results_simp
theorem keep00_main_arg2 : StableHlo.after (hostOps0 (F := Ideal)) Wg (Proc.devRef .tc main_arg2) = Wg (Proc.devRef .tc main_arg2) := by
  after_results_simp
theorem keep00_main_arg3 : StableHlo.after (hostOps0 (F := Ideal)) Wg (Proc.devRef .tc main_arg3) = Wg (Proc.devRef .tc main_arg3) := by
  after_results_simp

/-! ## The second stretch: the clip -/

theorem s01_clip : (StableHlo.after (hostOps0_1 (F := Ideal)) Wg (Proc.devRef .tc main_v8) : (⟨S100000, .f32⟩ : BufTy).Contents (Elt Ideal))
    = maximumf (F := Ideal) (φ := .f32) (broadcastInDim S100000 ![] bcast_S_S100000 (id (Wg (Proc.devRef .tc main_cst_1) : (⟨S_, .f32⟩ : BufTy).Contents (Elt Ideal))))
        (Wg (Proc.devRef .tc main_v7) : (⟨S100000, .f32⟩ : BufTy).Contents (Elt Ideal)) := by
  after_results_simp <;> rfl
theorem keep01_main_v1 : StableHlo.after (hostOps0_1 (F := Ideal)) Wg (Proc.devRef .tc main_v1) = Wg (Proc.devRef .tc main_v1) := by
  after_results_simp
theorem keep01_main_v3 : StableHlo.after (hostOps0_1 (F := Ideal)) Wg (Proc.devRef .tc main_v3) = Wg (Proc.devRef .tc main_v3) := by
  after_results_simp
theorem keep01_main_arg0 : StableHlo.after (hostOps0_1 (F := Ideal)) Wg (Proc.devRef .tc main_arg0) = Wg (Proc.devRef .tc main_arg0) := by
  after_results_simp
theorem keep01_main_arg2 : StableHlo.after (hostOps0_1 (F := Ideal)) Wg (Proc.devRef .tc main_arg2) = Wg (Proc.devRef .tc main_arg2) := by
  after_results_simp
theorem keep01_main_arg3 : StableHlo.after (hostOps0_1 (F := Ideal)) Wg (Proc.devRef .tc main_arg3) = Wg (Proc.devRef .tc main_arg3) := by
  after_results_simp

/-! ## The third stretch: the reciprocal degrees, the transposed weights, the first neighbour sum -/

theorem s02_inv : (StableHlo.after (hostOps0_2 (F := Ideal)) Wg (Proc.devRef .tc main_v12) : (⟨S100000x128, .f32⟩ : BufTy).Contents (Elt Ideal))
    = broadcastInDim S100000x128 ![0, 1] bcast_S100000x1_S100000x128_0_1
        (broadcastInDim S100000x1 ![0] bcast_S100000_S100000x1_0
          (Host.divf (F := Ideal) (broadcastInDim S100000 ![] bcast_S_S100000 (constant (F := Ideal) S_ .f32 0x3F800000#32))
            (Wg (Proc.devRef .tc main_v8) : (⟨S100000, .f32⟩ : BufTy).Contents (Elt Ideal)))) := by
  after_results_simp <;> rfl
theorem s02_wt : StableHlo.after (hostOps0_2 (F := Ideal)) Wg (Proc.devRef .tc main_v13) = wtK (Wg (Proc.devRef .tc main_arg2)) := by
  after_results_simp <;> rfl
theorem agg0 : StableHlo.after (hostOps0_2 (F := Ideal)) Wg (Proc.devRef .tc main_v23)
    = aggK (Wg (Proc.devRef .tc main_arg0)) (Wg (Proc.devRef .tc main_v1)) (Wg (Proc.devRef .tc main_v3)) := by
  after_results_simp <;> rfl
theorem keep02_main_v1 : StableHlo.after (hostOps0_2 (F := Ideal)) Wg (Proc.devRef .tc main_v1) = Wg (Proc.devRef .tc main_v1) := by
  after_results_simp
theorem keep02_main_v3 : StableHlo.after (hostOps0_2 (F := Ideal)) Wg (Proc.devRef .tc main_v3) = Wg (Proc.devRef .tc main_v3) := by
  after_results_simp
theorem keep02_main_arg3 : StableHlo.after (hostOps0_2 (F := Ideal)) Wg (Proc.devRef .tc main_arg3) = Wg (Proc.devRef .tc main_arg3) := by
  after_results_simp
theorem keep02_main_arg0 : StableHlo.after (hostOps0_2 (F := Ideal)) Wg (Proc.devRef .tc main_arg0) = Wg (Proc.devRef .tc main_arg0) := by
  after_results_simp

end Cert.KernelIdeal.Stretch

end
-- ==== Proof.Stretch1.lean ====
/-
  The host operations between launch 1 and launch 2 of the kernel program, read over any contents `Wg` they start
  from: they normalise the source rows, gather the current features along them and scatter-add the gathered rows
  into the destinations — the neighbour sum of the current features — and write nothing else that a launch reads:
  the edge rows, the reciprocal degrees, the transposed weights, the bias and the current features stay as they were.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

theorem keep1_main_v1 : StableHlo.after (hostOps1 (F := Ideal)) Wg (Proc.devRef .tc main_v1) = Wg (Proc.devRef .tc main_v1) := by
  after_results_simp
theorem keep1_main_v3 : StableHlo.after (hostOps1 (F := Ideal)) Wg (Proc.devRef .tc main_v3) = Wg (Proc.devRef .tc main_v3) := by
  after_results_simp
theorem keep1_main_v12 : StableHlo.after (hostOps1 (F := Ideal)) Wg (Proc.devRef .tc main_v12) = Wg (Proc.devRef .tc main_v12) := by
  after_results_simp
theorem keep1_main_v13 : StableHlo.after (hostOps1 (F := Ideal)) Wg (Proc.devRef .tc main_v13) = Wg (Proc.devRef .tc main_v13) := by
  after_results_simp
theorem keep1_main_arg3 : StableHlo.after (hostOps1 (F := Ideal)) Wg (Proc.devRef .tc main_arg3) = Wg (Proc.devRef .tc main_arg3) := by
  after_results_simp
theorem keep1_main_v24 : StableHlo.after (hostOps1 (F := Ideal)) Wg (Proc.devRef .tc main_v24) = Wg (Proc.devRef .tc main_v24) := by
  after_results_simp
theorem agg1 : StableHlo.after (hostOps1 (F := Ideal)) Wg (Proc.devRef .tc main_v34)
    = aggK (Wg (Proc.devRef .tc main_v24)) (Wg (Proc.devRef .tc main_v1)) (Wg (Proc.devRef .tc main_v3)) := by
  after_results_simp <;> rfl

end Cert.KernelIdeal.Stretch

end
-- ==== Proof.Stretch2.lean ====
/-
  The host operations between launch 2 and launch 3 of the kernel program, read over any contents `Wg` they start
  from: they normalise the source rows, gather the current features along them and scatter-add the gathered rows
  into the destinations — the neighbour sum of the current features — and write nothing else that a launch reads:
  the edge rows, the reciprocal degrees, the transposed weights, the bias and the current features stay as they were.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

theorem keep2_main_v1 : StableHlo.after (hostOps2 (F := Ideal)) Wg (Proc.devRef .tc main_v1) = Wg (Proc.devRef .tc main_v1) := by
  after_results_simp
theorem keep2_main_v3 : StableHlo.after (hostOps2 (F := Ideal)) Wg (Proc.devRef .tc main_v3) = Wg (Proc.devRef .tc main_v3) := by
  after_results_simp
theorem keep2_main_v12 : StableHlo.after (hostOps2 (F := Ideal)) Wg (Proc.devRef .tc main_v12) = Wg (Proc.devRef .tc main_v12) := by
  after_results_simp
theorem keep2_main_v13 : StableHlo.after (hostOps2 (F := Ideal)) Wg (Proc.devRef .tc main_v13) = Wg (Proc.devRef .tc main_v13) := by
  after_results_simp
theorem keep2_main_arg3 : StableHlo.after (hostOps2 (F := Ideal)) Wg (Proc.devRef .tc main_arg3) = Wg (Proc.devRef .tc main_arg3) := by
  after_results_simp
theorem keep2_main_v35 : StableHlo.after (hostOps2 (F := Ideal)) Wg (Proc.devRef .tc main_v35) = Wg (Proc.devRef .tc main_v35) := by
  after_results_simp
theorem agg2 : StableHlo.after (hostOps2 (F := Ideal)) Wg (Proc.devRef .tc main_v45)
    = aggK (Wg (Proc.devRef .tc main_v35)) (Wg (Proc.devRef .tc main_v1)) (Wg (Proc.devRef .tc main_v3)) := by
  after_results_simp <;> rfl

end Cert.KernelIdeal.Stretch

end
-- ==== Proof.Stretch3.lean ====
/-
  The host operations between launch 3 and launch 4 of the kernel program, read over any contents `Wg` they start
  from: they normalise the source rows, gather the current features along them and scatter-add the gathered rows
  into the destinations — the neighbour sum of the current features — and write nothing else that a launch reads:
  the edge rows, the reciprocal degrees, the transposed weights, the bias and the current features stay as they were.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

theorem keep3_main_v1 : StableHlo.after (hostOps3 (F := Ideal)) Wg (Proc.devRef .tc main_v1) = Wg (Proc.devRef .tc main_v1) := by
  after_results_simp
theorem keep3_main_v3 : StableHlo.after (hostOps3 (F := Ideal)) Wg (Proc.devRef .tc main_v3) = Wg (Proc.devRef .tc main_v3) := by
  after_results_simp
theorem keep3_main_v12 : StableHlo.after (hostOps3 (F := Ideal)) Wg (Proc.devRef .tc main_v12) = Wg (Proc.devRef .tc main_v12) := by
  after_results_simp
theorem keep3_main_v13 : StableHlo.after (hostOps3 (F := Ideal)) Wg (Proc.devRef .tc main_v13) = Wg (Proc.devRef .tc main_v13) := by
  after_results_simp
theorem keep3_main_arg3 : StableHlo.after (hostOps3 (F := Ideal)) Wg (Proc.devRef .tc main_arg3) = Wg (Proc.devRef .tc main_arg3) := by
  after_results_simp
theorem keep3_main_v46 : StableHlo.after (hostOps3 (F := Ideal)) Wg (Proc.devRef .tc main_v46) = Wg (Proc.devRef .tc main_v46) := by
  after_results_simp
theorem agg3 : StableHlo.after (hostOps3 (F := Ideal)) Wg (Proc.devRef .tc main_v56)
    = aggK (Wg (Proc.devRef .tc main_v46)) (Wg (Proc.devRef .tc main_v1)) (Wg (Proc.devRef .tc main_v3)) := by
  after_results_simp <;> rfl

end Cert.KernelIdeal.Stretch

end
-- ==== Proof.Stretch4.lean ====
/-
  The host operations between launch 4 and launch 5 of the kernel program, read over any contents `Wg` they start
  from: they normalise the source rows, gather the current features along them and scatter-add the gathered rows
  into the destinations — the neighbour sum of the current features — and write nothing else that a launch reads:
  the edge rows, the reciprocal degrees, the transposed weights, the bias and the current features stay as they were.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

theorem keep4_main_v1 : StableHlo.after (hostOps4 (F := Ideal)) Wg (Proc.devRef .tc main_v1) = Wg (Proc.devRef .tc main_v1) := by
  after_results_simp
theorem keep4_main_v3 : StableHlo.after (hostOps4 (F := Ideal)) Wg (Proc.devRef .tc main_v3) = Wg (Proc.devRef .tc main_v3) := by
  after_results_simp
theorem keep4_main_v12 : StableHlo.after (hostOps4 (F := Ideal)) Wg (Proc.devRef .tc main_v12) = Wg (Proc.devRef .tc main_v12) := by
  after_results_simp
theorem keep4_main_v13 : StableHlo.after (hostOps4 (F := Ideal)) Wg (Proc.devRef .tc main_v13) = Wg (Proc.devRef .tc main_v13) := by
  after_results_simp
theorem keep4_main_arg3 : StableHlo.after (hostOps4 (F := Ideal)) Wg (Proc.devRef .tc main_arg3) = Wg (Proc.devRef .tc main_arg3) := by
  after_results_simp
theorem keep4_main_v57 : StableHlo.after (hostOps4 (F := Ideal)) Wg (Proc.devRef .tc main_v57) = Wg (Proc.devRef .tc main_v57) := by
  after_results_simp
theorem agg4 : StableHlo.after (hostOps4 (F := Ideal)) Wg (Proc.devRef .tc main_v67)
    = aggK (Wg (Proc.devRef .tc main_v57)) (Wg (Proc.devRef .tc main_v1)) (Wg (Proc.devRef .tc main_v3)) := by
  after_results_simp <;> rfl

end Cert.KernelIdeal.Stretch

end
-- ==== Proof.Stretch5.lean ====
/-
  The host operations between launch 5 and launch 6 of the kernel program, read over any contents `Wg` they start
  from: they normalise the source rows, gather the current features along them and scatter-add the gathered rows
  into the destinations — the neighbour sum of the current features — and write nothing else that a launch reads:
  the edge rows, the reciprocal degrees, the transposed weights, the bias and the current features stay as they were.
-/
import proofs.«172677_j33947421507739_1_alg».proof.Proof.Gen.KernelIdeal.Launch
import proofs.«172677_j33947421507739_1_alg».proof.Proof.KernelHost

set_option maxRecDepth 16384

noncomputable section

namespace Cert.KernelIdeal.Stretch

open Idealize.ShloMosaic Idealize.ShloMosaic.TcCoe
open Idealize.ShloMosaic.StableHlo
open Cert.KernelIdeal Cert.KernelIdeal.Gen Cert.KernelIdeal.HostFns

variable (Wg : Valuation τ sig (Elt Ideal))

theorem keep5_main_v1 : StableHlo.after (hostOps5 (F := Ideal)) Wg (Proc.devRef .tc main_v1) = Wg (Proc.devRef .tc main_v1) := by
  after_results_simp
theorem keep5_main_v3 : StableHlo.after (hostOps5 (F := Ideal)) Wg (Proc.devRef .tc main_v3) = Wg (Proc.devRef .tc main_v3) := by
  after_results_simp
theorem keep5_main_v12 : StableHlo.after (hostOps5 (F := Ideal)) Wg (Proc.devRef .tc main_v12) = Wg (Proc.devRef .tc main_v12) := by
  after_results_simp
theorem keep5_main_v13 : StableHlo.after (hostOps5 (F := Ideal)) Wg (Proc.devRef .tc main_v13) = Wg (Proc.devRef .tc main_v13) := by
  after_results_simp
theorem keep5_main_arg3 : StableHlo.after (hostOps5 (F := Ideal)) Wg (Proc.devRef .tc main_arg3) = Wg (Proc.devRef .tc main_arg3) := by
  after_results_simp
theorem keep5_main_v68 : StableHlo.after (hostOps5 (F := Ideal)) Wg (Proc.devRef .tc main_v68) = Wg (Proc.devRef .tc main_v68) := by
  after_results_simp
theorem agg5 : StableHlo.after (hostOps5 (F := Ideal)) Wg (Proc.devRef .tc main_v78)
    = aggK (Wg (Proc.devRef .tc main_v68)) (Wg (Proc.devRef .tc main_v1)) (Wg (Proc.devRef .tc main_v3)) := by
  after_results_simp <;> rfl

end Cert.KernelIdeal.Stretch

end
-- ==== Proof.Payload.lean ====
/-
  One block of the message-passing round, entry by entry.

  A block is 4000 consecutive nodes with their 128 features. Given the block of neighbour sums a, the block of
  reciprocal degrees d, the 128 x 128 matrix w, the bias b and the block of node features x, the body computes

      out[r, h] = x[r, h] + max( (sum over k of (a[r, k] * d[r, k]) * w[k, h]) + b[h], 0 ).

  On the extended reals the narrowing of the two matrix-product operands to a shorter float format is the
  identity, and a matrix product accumulated into zeros is the plain sum over the contracted axis; the bias, a
  row of 128 values, is viewed as a 1 x 128 array and repeated down the 4000 rows; reshaping an array to its own
  shape changes nothing. So each entry of the block is the formula above, which is what the lemmas here say for
  each of the six copies of the body.

  The 25 blocks tile the 100000 nodes: block q holds nodes 4000 q, ..., 4000 q + 3999. When the three node-indexed
  blocks are rows 4000 q + r of their arrays, and the matrix and the bias are whole, the formula above at (r, h) is
  entry (4000 q + r, h) of one round of the whole arrays. The second half of this file says that, once, and then
  for each copy of the body.
-/
import proofs.«172677_j33947421507739_1_alg».proof.Proof.Gen.KernelIdeal.Skeleton
import proofs.«172677_j33947421507739_1_alg».proof.Proof.Step
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.ValueIdx
open scoped BigOperators

/-! ## The matrix product at one entry -/

/-- The left operand's row coordinate is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The left operand's column coordinate is the contracted index. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The right operand's row coordinate is the contracted index. -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The right operand's column coordinate is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A 4000 x 128 block times a 128 x 128 matrix, accumulated into zeros: entry (r, h) is the sum over k of
    a[r, k] * w[k, h]. -/
theorem matmul_at (a : FVec Ideal S4000x128 .bf16) (w : FVec Ideal S128x128 .bf16) (r : Fin 4000) (h : Fin 128) :
    matmul dot_S4000x128_S128x128_S4000x128_1_0_0_1_n_n none a w (constant (F := Ideal) S4000x128 .f32 0x00000000#32) (ix2 r h)
      = ∑ k : Fin 128, a (ix2 r k) * w (ix2 k h) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r h)
      ((contrEquiv1 dot_S4000x128_S128x128_S4000x128_1_0_0_1_n_n 128 rfl rfl).symm k) = ix2 r k :=
    funext fun ax => Fin.ext (by
      match ax with
      | ⟨0, _⟩ => exact lhs_row _ _
      | ⟨1, _⟩ => exact (lhs_col _ _).trans hk)
  have er : dot_S4000x128_S128x128_S4000x128_1_0_0_1_n_n.rhsIdx (ix2 r h)
      ((contrEquiv1 dot_S4000x128_S128x128_S4000x128_1_0_0_1_n_n 128 rfl rfl).symm k) = ix2 k h :=
    funext fun ax => Fin.ext (by
      match ax with
      | ⟨0, _⟩ => exact (rhs_row _ _).trans hk
      | ⟨1, _⟩ => exact rhs_col _ _)
  rw [el, er]

/-! ## The bias, repeated down the rows -/

/-- A row of 128 values viewed as 1 x 128 and repeated over 4000 rows reads, at (r, h), the value at h. -/
theorem bias_at (b : FVec Ideal S128 .f32) (r : Fin 4000) (h : Fin 128) :
    broadcastTo S4000x128 (shapeCast S1x128 b shapeCasts_S128_S1x128) broadcasts_S1x128_S4000x128 (ix2 r h) = b (ix1 h) := by
  rw [broadcastTo_1b_ab_apply, shapeCast_a_1a_apply]

/-- The scalar zero the body clips at is the real number zero. -/
theorem zero_scalar : Scalar.ofBits (F := Ideal) .f32 0x00000000#32 = 0 := Ideal.ofBits_zero_f32

/-! ## The body's result at one entry -/

/-- Entry (r, h) of what the first copy of the body stores. -/
theorem k0_pay1_apply (v0 v2 : Vec Ideal S4000x128 .f32) (v6 : Vec Ideal S128x128 .f32) (v10 : Vec Ideal S128 .f32)
    (v16 : Vec Ideal S4000x128 .f32) (r : Fin 4000) (h : Fin 128) :
    k0_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k0_pay1
  simp only [shapeCast_self]
  rw [addf_apply, maximumf_apply, addf_apply, matmul_at, bias_at, broadcast_apply, zero_scalar]
  rfl

/-- Entry (r, h) of what the second copy of the body stores: the same formula (this copy reshapes the feature
    block to its own shape before adding, which changes nothing). -/
theorem k1_pay1_apply (v0 v2 : Vec Ideal S4000x128 .f32) (v6 : Vec Ideal S128x128 .f32) (v10 : Vec Ideal S128 .f32)
    (v16 : Vec Ideal S4000x128 .f32) (r : Fin 4000) (h : Fin 128) :
    k1_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k1_pay1
  simp only [shapeCast_self]
  rw [addf_apply, maximumf_apply, addf_apply, matmul_at, bias_at, broadcast_apply, zero_scalar]
  rfl

/-- Entry (r, h) of what the third copy of the body stores: the same formula (this copy reshapes the feature
    block to its own shape before adding, which changes nothing). -/
theorem k2_pay1_apply (v0 v2 : Vec Ideal S4000x128 .f32) (v6 : Vec Ideal S128x128 .f32) (v10 : Vec Ideal S128 .f32)
    (v16 : Vec Ideal S4000x128 .f32) (r : Fin 4000) (h : Fin 128) :
    k2_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k2_pay1
  simp only [shapeCast_self]
  rw [addf_apply, maximumf_apply, addf_apply, matmul_at, bias_at, broadcast_apply, zero_scalar]
  rfl

/-- Entry (r, h) of what the fourth copy of the body stores: the same formula (this copy reshapes the feature
    block to its own shape before adding, which changes nothing). -/
theorem k3_pay1_apply (v0 v2 : Vec Ideal S4000x128 .f32) (v6 : Vec Ideal S128x128 .f32) (v10 : Vec Ideal S128 .f32)
    (v16 : Vec Ideal S4000x128 .f32) (r : Fin 4000) (h : Fin 128) :
    k3_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k3_pay1
  simp only [shapeCast_self]
  rw [addf_apply, maximumf_apply, addf_apply, matmul_at, bias_at, broadcast_apply, zero_scalar]
  rfl

/-- Entry (r, h) of what the fifth copy of the body stores: the same formula (this copy reshapes the feature
    block to its own shape before adding, which changes nothing). -/
theorem k4_pay1_apply (v0 v2 : Vec Ideal S4000x128 .f32) (v6 : Vec Ideal S128x128 .f32) (v10 : Vec Ideal S128 .f32)
    (v16 : Vec Ideal S4000x128 .f32) (r : Fin 4000) (h : Fin 128) :
    k4_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k4_pay1
  simp only [shapeCast_self]
  rw [addf_apply, maximumf_apply, addf_apply, matmul_at, bias_at, broadcast_apply, zero_scalar]
  rfl

/-- Entry (r, h) of what the sixth copy of the body stores: the same formula (this copy reshapes the feature
    block to its own shape before adding, which changes nothing). -/
theorem k5_pay1_apply (v0 v2 : Vec Ideal S4000x128 .f32) (v6 : Vec Ideal S128x128 .f32) (v10 : Vec Ideal S128 .f32)
    (v16 : Vec Ideal S4000x128 .f32) (r : Fin 4000) (h : Fin 128) :
    k5_pay1 (F := Ideal) v0 v2 v6 v10 v16 (ix2 r h)
      = v16 (ix2 r h) + max ((∑ k : Fin 128, (v0 (ix2 r k) * v2 (ix2 r k)) * v6 (ix2 k h)) + v10 (ix1 h)) 0 := by
  unfold k5_pay1
  simp only [shapeCast_self]
  rw [addf_apply, maximumf_apply, addf_apply, matmul_at, bias_at, broadcast_apply, zero_scalar]
  rfl

/-! ## A block of the round is the round of the whole arrays, on the block's rows -/

theorem zeros2 : (![0, 0] : Fin 2 → Nat) = fun _ => 0 := funext fun a => by fin_cases a <;> rfl

theorem zeros1 : (![0] : Fin 1 → Nat) = fun _ => 0 := funext fun a => by fin_cases a <;> rfl

/-- If the blocks a, d, x hold rows 4000 q + r of the arrays agg, inv, xs, and w, b are the whole matrix and bias,
    then the body's formula at (r, h) is the round's entry at node n = 4000 q + r and feature h. -/
theorem block_formula (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (r : Fin 4000) (h : Fin 128) (n : Fin 100000) (hn : n.val = q * 4000 + r.val) :
    x2 (ix2 r h) + max ((∑ k : Fin 128, (x0 (ix2 r k) * x1 (ix2 r k)) * x3 (ix2 k h)) + x4 (ix1 h)) 0
      = Cert.MsgStep.stepAt agg inv xs wt b n h := by
  unfold Cert.MsgStep.stepAt
  rw [h2 (ix2 r h) (ix2 n h) hn rfl, h4 (ix1 h)]
  refine congrArg (fun s => xs (ix2 n h) + max (s + b (ix1 h)) 0) (Finset.sum_congr rfl fun k _ => ?_)
  rw [h0 (ix2 r k) (ix2 n k) hn rfl, h1 (ix2 r k) (ix2 n k) hn rfl, h3 (ix2 k h)]

/-- What the first copy of the body stores at the block's index y is the round of the whole arrays at the array's
    index i, when i is row 4000 q + (y's row) and y's column. -/
theorem k0_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k0_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k0_pay1_apply, Cert.MsgStep.step_ix2]
  exact block_formula x0 x1 x2 x3 x4 agg inv xs wt b q h0 h1 h2 h3 h4 r h' n hi0

/-- What the second copy of the body stores at the block's index y is the round of the whole arrays at the array's
    index i, when i is row 4000 q + (y's row) and y's column. -/
theorem k1_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k1_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k1_pay1_apply, Cert.MsgStep.step_ix2]
  exact block_formula x0 x1 x2 x3 x4 agg inv xs wt b q h0 h1 h2 h3 h4 r h' n hi0

/-- What the third copy of the body stores at the block's index y is the round of the whole arrays at the array's
    index i, when i is row 4000 q + (y's row) and y's column. -/
theorem k2_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k2_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k2_pay1_apply, Cert.MsgStep.step_ix2]
  exact block_formula x0 x1 x2 x3 x4 agg inv xs wt b q h0 h1 h2 h3 h4 r h' n hi0

/-- What the fourth copy of the body stores at the block's index y is the round of the whole arrays at the array's
    index i, when i is row 4000 q + (y's row) and y's column. -/
theorem k3_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k3_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k3_pay1_apply, Cert.MsgStep.step_ix2]
  exact block_formula x0 x1 x2 x3 x4 agg inv xs wt b q h0 h1 h2 h3 h4 r h' n hi0

/-- What the fifth copy of the body stores at the block's index y is the round of the whole arrays at the array's
    index i, when i is row 4000 q + (y's row) and y's column. -/
theorem k4_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k4_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k4_pay1_apply, Cert.MsgStep.step_ix2]
  exact block_formula x0 x1 x2 x3 x4 agg inv xs wt b q h0 h1 h2 h3 h4 r h' n hi0

/-- What the sixth copy of the body stores at the block's index y is the round of the whole arrays at the array's
    index i, when i is row 4000 q + (y's row) and y's column. -/
theorem k5_block (x0 x1 x2 : Vec Ideal S4000x128 .f32) (x3 : Vec Ideal S128x128 .f32) (x4 : Vec Ideal S128 .f32)
    (agg inv xs : Cert.MsgStep.Nodes.Idx → EReal) (wt : Cert.MsgStep.Sq.Idx → EReal) (b : Cert.MsgStep.Feat.Idx → EReal) (q : Nat)
    (h0 : ∀ (y : S4000x128.Idx) (i : Cert.MsgStep.Nodes.Idx), (i 0).val = q * 4000 + (y 0).val → (i 1).val = (y 1).val → x0 y = agg i)
    (h1 : ∀ (y : S4000x128.Idx) (i : Cert.MsgStep.Nodes.Idx), (i 0).val = q * 4000 + (y 0).val → (i 1).val = (y 1).val → x1 y = inv i)
    (h2 : ∀ (y : S4000x128.Idx) (i : Cert.MsgStep.Nodes.Idx), (i 0).val = q * 4000 + (y 0).val → (i 1).val = (y 1).val → x2 y = xs i)
    (h3 : ∀ y : S128x128.Idx, x3 y = wt y) (h4 : ∀ y : S128.Idx, x4 y = b y)
    (y : S4000x128.Idx) (i : Cert.MsgStep.Nodes.Idx) (hi0 : (i 0).val = q * 4000 + (y 0).val) (hi1 : (i 1).val = (y 1).val) :
    k5_pay1 (F := Ideal) x0 x1 x3 x4 x2 y = Cert.MsgStep.step agg inv xs wt b i := by
  obtain ⟨r, h, rfl⟩ : ∃ (r : Fin 4000) (h : Fin 128), y = ix2 r h := ⟨y 0, y 1, eq_ix2 y⟩
  obtain ⟨n, h', rfl⟩ : ∃ (n : Fin 100000) (h' : Fin 128), i = ix2 n h' := ⟨i 0, i 1, eq_ix2 i⟩
  obtain rfl : h' = h := Fin.ext hi1
  rw [k5_pay1_apply, Cert.MsgStep.step_ix2]
  exact block_formula x0 x1 x2 x3 x4 agg inv xs wt b q h0 h1 h2 h3 h4 r h' n hi0

end Cert.KernelIdeal.RegionValue

end
-- ==== Proof.Region0.lean ====
/-
  The array that region 0 leaves behind.

  Region 0 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 0 has 25 points. -/
theorem point0_lt (t : Fin cfg0.N) : t.val < 25 := lt_of_lt_of_eq t.isLt N_0

/-- The block index of each window at each of the 25 points: the node-indexed windows and the output are at block
    (t, 0), the matrix and the bias at block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The input blocks as rows of their arrays -/

/-- The neighbour-sum block at point t is rows 4000 t onwards of its array. -/
theorem rows0_0 (c : Dev nD) (t : Fin cfg0.N) (y : S4000x128.Idx) (i : S100000x128.Idx)
    (hi0 : (i 0).val = t.val * 4000 + (y 0).val) (hi1 : (i 1).val = (y 1).val) :
    (iblk0 V c 0 t : Vec Ideal S4000x128 .f32) y = (V c main_v23 : S100000x128.Idx → EReal) i := by
  obtain ⟨e0, e1, -⟩ := blockIndex0 t
  unfold iblk0
  rw [View.read_apply]
  show V c main_v23 _ = V c main_v23 _
  refine congrArg (V c main_v23) (funext fun a => Fin.ext ?_)
  match a with
  | ⟨0, _⟩ => show win0_0.index t (0 : Fin 2) * 4000 + 1 * (y 0).val = (i 0).val; rw [e0, hi0]; omega
  | ⟨1, _⟩ => show win0_0.index t (1 : Fin 2) * 128 + 1 * (y 1).val = (i 1).val; rw [e1, hi1]; omega

/-- The reciprocal-degree block at point t is rows 4000 t onwards of its array. -/
theorem rows0_1 (c : Dev nD) (t : Fin cfg0.N) (y : S4000x128.Idx) (i : S100000x128.Idx)
    (hi0 : (i 0).val = t.val * 4000 + (y 0).val) (hi1 : (i 1).val = (y 1).val) :
    (iblk0 V c 1 t : Vec Ideal S4000x128 .f32) y = (V c main_v12 : S100000x128.Idx → EReal) i := by
  obtain ⟨-, -, e0, e1, -⟩ := blockIndex0 t
  unfold iblk0
  rw [View.read_apply]
  show V c main_v12 _ = V c main_v12 _
  refine congrArg (V c main_v12) (funext fun a => Fin.ext ?_)
  match a with
  | ⟨0, _⟩ => show win0_1.index t (0 : Fin 2) * 4000 + 1 * (y 0).val = (i 0).val; rw [e0, hi0]; omega
  | ⟨1, _⟩ => show win0_1.index t (1 : Fin 2) * 128 + 1 * (y 1).val = (i 1).val; rw [e1, hi1]; omega

/-- The node-feature block at point t is rows 4000 t onwards of its array. -/
theorem rows0_2 (c : Dev nD) (t : Fin cfg0.N) (y : S4000x128.Idx) (i : S100000x128.Idx)
    (hi0 : (i 0).val = t.val * 4000 + (y 0).val) (hi1 : (i 1).val = (y 1).val) :
    (iblk0 V c 2 t : Vec Ideal S4000x128 .f32) y = (V c main_arg0 : S100000x128.Idx → EReal) i := by
  obtain ⟨-, -, -, -, e0, e1, -⟩ := blockIndex0 t
  unfold iblk0
  rw [View.read_apply]
  show V c main_arg0 _ = V c main_arg0 _
  refine congrArg (V c main_arg0) (funext fun a => Fin.ext ?_)
  match a with
  | ⟨0, _⟩ => show win0_2.index t (0 : Fin 2) * 4000 + 1 * (y 0).val = (i 0).val; rw [e0, hi0]; omega
  | ⟨1, _⟩ => show win0_2.index t (1 : Fin 2) * 128 + 1 * (y 1).val = (i 1).val; rw [e1, hi1]; omega

/-- The matrix window holds the whole matrix at every point. -/
theorem whole0_3 (c : Dev nD) (t : Fin cfg0.N) (y : S128x128.Idx) :
    (iblk0 V c 3 t : Vec Ideal S128x128 .f32) y = (V c main_v13 : S128x128.Idx → EReal) y := by
  obtain ⟨-, -, -, -, -, -, e0, e1, -⟩ := blockIndex0 t
  unfold iblk0
  rw [View.read_apply]
  show V c main_v13 _ = V c main_v13 _
  refine congrArg (V c main_v13) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias window holds the whole bias at every point. -/
theorem whole0_4 (c : Dev nD) (t : Fin cfg0.N) (y : S128.Idx) :
    (iblk0 V c 4 t : Vec Ideal S128 .f32) y = (V c main_arg3 : S128.Idx → EReal) y := by
  obtain ⟨-, -, -, -, -, -, -, -, e0, -⟩ := blockIndex0 t
  unfold iblk0
  rw [View.read_apply]
  show V c main_arg3 _ = V c main_arg3 _
  refine congrArg (V c main_arg3) (funext fun a => Fin.ext ?_)
  match a with
  | ⟨0, _⟩ => show win0_4.index t (0 : Fin 1) * 128 + 1 * (y 0).val = (y 0).val; rw [e0]; omega

/-! ## What a point writes back -/

/-- Point t writes back rows 4000 t onwards of one round of the arrays the region found. -/
theorem flushed0_eq (c : Dev nD) (t : Fin cfg0.N) :
    (dat0 V c).flushed 5 t = ((cfg0.win 5).blk t).view.read (Elt Ideal)
      (Cert.MsgStep.step (V c main_v23) (V c main_v12) (V c main_arg0) (V c main_v13) (V c main_arg3)) := by
  show (cfg0.win 5).cut (grid0.coords t) ((dat0 V c).after 5 t) = _
  rw [after0_5]
  unfold out0_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex0 t
  funext j
  show k0_pay1 (F := Ideal) (iblk0 V c 0 t) (iblk0 V c 1 t) (iblk0 V c 3 t) (iblk0 V c 4 t) (iblk0 V c 2 t) j
    = Cert.MsgStep.step (V c main_v23) (V c main_v12) (V c main_arg0) (V c main_v13) (V c main_arg3) (((cfg0.win 5).blk t).view.emb j)
  exact k0_block (iblk0 V c 0 t) (iblk0 V c 1 t) (iblk0 V c 2 t) (iblk0 V c 3 t) (iblk0 V c 4 t)
    (V c main_v23) (V c main_v12) (V c main_arg0) (V c main_v13) (V c main_arg3) t.val
    (fun y i h0 h1 => rows0_0 V c t y i h0 h1) (fun y i h0 h1 => rows0_1 V c t y i h0 h1) (fun y i h0 h1 => rows0_2 V c t y i h0 h1)
    (fun y => whole0_3 V c t y) (fun y => whole0_4 V c t y) j (((cfg0.win 5).blk t).view.emb j)
    (by show win0_5.index t (0 : Fin 2) * 4000 + 1 * (j 0).val = t.val * 4000 + (j 0).val; rw [e0]; omega)
    (by show win0_5.index t (1 : Fin 2) * 128 + 1 * (j 1).val = (j 1).val; rw [e1]; omega)

/-! ## The blocks cover the array -/

/-- An index of the result is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v24).slice (win0_5.rect t)).set ↔ _
  rw [View.set_slice_whole, Rect.mem_set_unit]
  exact Iff.rfl

/-- Node n is in the block of point n / 4000. -/
theorem cover0 (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have hq : (i 0).val / 4000 < cfg0.N := lt_of_lt_of_eq (by omega : (i 0).val / 4000 < 25) N_0.symm
  obtain ⟨-, -, -, -, -, -, -, -, -, e0, e1⟩ := blockIndex0 ⟨(i 0).val / 4000, hq⟩
  refine ⟨⟨(i 0).val / 4000, hq⟩, flush0_5 _, ?_⟩
  rw [mem_blk0]
  intro a
  match a with
  | ⟨0, _⟩ =>
    show win0_5.index ⟨(i 0).val / 4000, hq⟩ (0 : Fin 2) * 4000 ≤ (i 0).val
      ∧ (i 0).val < win0_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hq⟩ (1 : Fin 2) * 128 ≤ (i 1).val
      ∧ (i 1).val < win0_5.index ⟨(i 0).val / 4000, hq⟩ (1 : Fin 2) * 128 + 128
    rw [e1]; omega

/-! ## The array after the region -/

/-- After region 0 the result array is one round of message passing of the arrays the region found. -/
theorem region0 (c : Dev nD) :
    (dat0 (F := Ideal) V c).arrAt 5 cfg0.N
      = Cert.MsgStep.step (V c main_v23) (V c main_v12) (V c main_arg0) (V c main_v13) (V c main_arg3) :=
  (dat0 (F := Ideal) V c).arrAt_eq_of_cover 5
    (Cert.MsgStep.step (V c main_v23) (V c main_v12) (V c main_arg0) (V c main_v13) (V c main_arg3))
    (fun t _ => flushed0_eq V c t) cover0

end Cert.KernelIdeal.RegionValue

end
-- ==== Proof.Region1.lean ====
/-
  The array that region 1 leaves behind.

  Region 1 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 1 has 25 points. -/
theorem point1_lt (t : Fin cfg1.N) : t.val < 25 := lt_of_lt_of_eq t.isLt N_1

/-- The block index of each window at each of the 25 points: the node-indexed windows and the output are at block
    (t, 0), the matrix and the bias at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## The input blocks as rows of their arrays -/

/-- The neighbour-sum block at point t is rows 4000 t onwards of its array. -/
theorem rows1_0 (c : Dev nD) (t : Fin cfg1.N) (y : S4000x128.Idx) (i : S100000x128.Idx)
    (hi0 : (i 0).val = t.val * 4000 + (y 0).val) (hi1 : (i 1).val = (y 1).val) :
    (iblk1 V c 0 t : Vec Ideal S4000x128 .f32) y = (V c main_v34 : S100000x128.Idx → EReal) i := by
  obtain ⟨e0, e1, -⟩ := blockIndex1 t
  unfold iblk1
  rw [View.read_apply]
  show V c main_v34 _ = V c main_v34 _
  refine congrArg (V c main_v34) (funext fun a => Fin.ext ?_)
  match a with
  | ⟨0, _⟩ => show win1_0.index t (0 : Fin 2) * 4000 + 1 * (y 0).val = (i 0).val; rw [e0, hi0]; omega
  | ⟨1, _⟩ => show win1_0.index t (1 : Fin 2) * 128 + 1 * (y 1).val = (i 1).val; rw [e1, hi1]; omega

/-- The reciprocal-degree block at point t is rows 4000 t onwards of its array. -/
theorem rows1_1 (c : Dev nD) (t : Fin cfg1.N) (y : S4000x128.Idx) (i : S100000x128.Idx)
    (hi0 : (i 0).val = t.val * 4000 + (y 0).val) (hi1 : (i 1).val = (y 1).val) :
    (iblk1 V c 1 t : Vec Ideal S4000x128 .f32) y = (V c main_v12 : S100000x128.Idx → EReal) i := by
  obtain ⟨-, -, e0, e1, -⟩ := blockIndex1 t
  unfold iblk1
  rw [View.read_apply]
  show V c main_v12 _ = V c main_v12 _
  refine congrArg (V c main_v12) (funext fun a => Fin.ext ?_)
  match a with
  | ⟨0, _⟩ => show win1_1.index t (0 : Fin 2) * 4000 + 1 * (y 0).val = (i 0).val; rw [e0, hi0]; omega
  | ⟨1, _⟩ => show win1_1.index t (1 : Fin 2) * 128 + 1 * (y 1).val = (i 1).val; rw [e1, hi1]; omega

/-- The node-feature block at point t is rows 4000 t onwards of its array. -/
theorem rows1_2 (c : Dev nD) (t : Fin cfg1.N) (y : S4000x128.Idx) (i : S100000x128.Idx)
    (hi0 : (i 0).val = t.val * 4000 + (y 0).val) (hi1 : (i 1).val = (y 1).val) :
    (iblk1 V c 2 t : Vec Ideal S4000x128 .f32) y = (V c main_v24 : S100000x128.Idx → EReal) i := by
  obtain ⟨-, -, -, -, e0, e1, -⟩ := blockIndex1 t
  unfold iblk1
  rw [View.read_apply]
  show V c main_v24 _ = V c main_v24 _
  refine congrArg (V c main_v24) (funext fun a => Fin.ext ?_)
  match a with
  | ⟨0, _⟩ => show win1_2.index t (0 : Fin 2) * 4000 + 1 * (y 0).val = (i 0).val; rw [e0, hi0]; omega
  | ⟨1, _⟩ => show win1_2.index t (1 : Fin 2) * 128 + 1 * (y 1).val = (i 1).val; rw [e1, hi1]; omega

/-- The matrix window holds the whole matrix at every point. -/
theorem whole1_3 (c : Dev nD) (t : Fin cfg1.N) (y : S128x128.Idx) :
    (iblk1 V c 3 t : Vec Ideal S128x128 .f32) y = (V c main_v13 : S128x128.Idx → EReal) y := by
  obtain ⟨-, -, -, -, -, -, e0, e1, -⟩ := blockIndex1 t
  unfold iblk1
  rw [View.read_apply]
  show V c main_v13 _ = V c main_v13 _
  refine congrArg (V c main_v13) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias window holds the whole bias at every point. -/
theorem whole1_4 (c : Dev nD) (t : Fin cfg1.N) (y : S128.Idx) :
    (iblk1 V c 4 t : Vec Ideal S128 .f32) y = (V c main_arg3 : S128.Idx → EReal) y := by
  obtain ⟨-, -, -, -, -, -, -, -, e0, -⟩ := blockIndex1 t
  unfold iblk1
  rw [View.read_apply]
  show V c main_arg3 _ = V c main_arg3 _
  refine congrArg (V c main_arg3) (funext fun a => Fin.ext ?_)
  match a with
  | ⟨0, _⟩ => show win1_4.index t (0 : Fin 1) * 128 + 1 * (y 0).val = (y 0).val; rw [e0]; omega

/-! ## What a point writes back -/

/-- Point t writes back rows 4000 t onwards of one round of the arrays the region found. -/
theorem flushed1_eq (c : Dev nD) (t : Fin cfg1.N) :
    (dat1 V c).flushed 5 t = ((cfg1.win 5).blk t).view.read (Elt Ideal)
      (Cert.MsgStep.step (V c main_v34) (V c main_v12) (V c main_v24) (V c main_v13) (V c main_arg3)) := by
  show (cfg1.win 5).cut (grid1.coords t) ((dat1 V c).after 5 t) = _
  rw [after1_5]
  unfold out1_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex1 t
  funext j
  show k1_pay1 (F := Ideal) (iblk1 V c 0 t) (iblk1 V c 1 t) (iblk1 V c 3 t) (iblk1 V c 4 t) (iblk1 V c 2 t) j
    = Cert.MsgStep.step (V c main_v34) (V c main_v12) (V c main_v24) (V c main_v13) (V c main_arg3) (((cfg1.win 5).blk t).view.emb j)
  exact k1_block (iblk1 V c 0 t) (iblk1 V c 1 t) (iblk1 V c 2 t) (iblk1 V c 3 t) (iblk1 V c 4 t)
    (V c main_v34) (V c main_v12) (V c main_v24) (V c main_v13) (V c main_arg3) t.val
    (fun y i h0 h1 => rows1_0 V c t y i h0 h1) (fun y i h0 h1 => rows1_1 V c t y i h0 h1) (fun y i h0 h1 => rows1_2 V c t y i h0 h1)
    (fun y => whole1_3 V c t y) (fun y => whole1_4 V c t y) j (((cfg1.win 5).blk t).view.emb j)
    (by show win1_5.index t (0 : Fin 2) * 4000 + 1 * (j 0).val = t.val * 4000 + (j 0).val; rw [e0]; omega)
    (by show win1_5.index t (1 : Fin 2) * 128 + 1 * (j 1).val = (j 1).val; rw [e1]; omega)

/-! ## The blocks cover the array -/

/-- An index of the result is in point t's block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v35).slice (win1_5.rect t)).set ↔ _
  rw [View.set_slice_whole, Rect.mem_set_unit]
  exact Iff.rfl

/-- Node n is in the block of point n / 4000. -/
theorem cover1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hq : (i 0).val / 4000 < cfg1.N := lt_of_lt_of_eq (by omega : (i 0).val / 4000 < 25) N_1.symm
  obtain ⟨-, -, -, -, -, -, -, -, -, e0, e1⟩ := blockIndex1 ⟨(i 0).val / 4000, hq⟩
  refine ⟨⟨(i 0).val / 4000, hq⟩, flush1_5 _, ?_⟩
  rw [mem_blk1]
  intro a
  match a with
  | ⟨0, _⟩ =>
    show win1_5.index ⟨(i 0).val / 4000, hq⟩ (0 : Fin 2) * 4000 ≤ (i 0).val
      ∧ (i 0).val < win1_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hq⟩ (1 : Fin 2) * 128 ≤ (i 1).val
      ∧ (i 1).val < win1_5.index ⟨(i 0).val / 4000, hq⟩ (1 : Fin 2) * 128 + 128
    rw [e1]; omega

/-! ## The array after the region -/

/-- After region 1 the result array is one round of message passing of the arrays the region found. -/
theorem region1 (c : Dev nD) :
    (dat1 (F := Ideal) V c).arrAt 5 cfg1.N
      = Cert.MsgStep.step (V c main_v34) (V c main_v12) (V c main_v24) (V c main_v13) (V c main_arg3) :=
  (dat1 (F := Ideal) V c).arrAt_eq_of_cover 5
    (Cert.MsgStep.step (V c main_v34) (V c main_v12) (V c main_v24) (V c main_v13) (V c main_arg3))
    (fun t _ => flushed1_eq V c t) cover1

end Cert.KernelIdeal.RegionValue

end
-- ==== Proof.Region2.lean ====
/-
  The array that region 2 leaves behind.

  Region 2 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 2 has 25 points. -/
theorem point2_lt (t : Fin cfg2.N) : t.val < 25 := lt_of_lt_of_eq t.isLt N_2

/-- The block index of each window at each of the 25 points: the node-indexed windows and the output are at block
    (t, 0), the matrix and the bias at block 0. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-! ## The input blocks as rows of their arrays -/

/-- The neighbour-sum block at point t is rows 4000 t onwards of its array. -/
theorem rows2_0 (c : Dev nD) (t : Fin cfg2.N) (y : S4000x128.Idx) (i : S100000x128.Idx)
    (hi0 : (i 0).val = t.val * 4000 + (y 0).val) (hi1 : (i 1).val = (y 1).val) :
    (iblk2 V c 0 t : Vec Ideal S4000x128 .f32) y = (V c main_v45 : S100000x128.Idx → EReal) i := by
  obtain ⟨e0, e1, -⟩ := blockIndex2 t
  unfold iblk2
  rw [View.read_apply]
  show V c main_v45 _ = V c main_v45 _
  refine congrArg (V c main_v45) (funext fun a => Fin.ext ?_)
  match a with
  | ⟨0, _⟩ => show win2_0.index t (0 : Fin 2) * 4000 + 1 * (y 0).val = (i 0).val; rw [e0, hi0]; omega
  | ⟨1, _⟩ => show win2_0.index t (1 : Fin 2) * 128 + 1 * (y 1).val = (i 1).val; rw [e1, hi1]; omega

/-- The reciprocal-degree block at point t is rows 4000 t onwards of its array. -/
theorem rows2_1 (c : Dev nD) (t : Fin cfg2.N) (y : S4000x128.Idx) (i : S100000x128.Idx)
    (hi0 : (i 0).val = t.val * 4000 + (y 0).val) (hi1 : (i 1).val = (y 1).val) :
    (iblk2 V c 1 t : Vec Ideal S4000x128 .f32) y = (V c main_v12 : S100000x128.Idx → EReal) i := by
  obtain ⟨-, -, e0, e1, -⟩ := blockIndex2 t
  unfold iblk2
  rw [View.read_apply]
  show V c main_v12 _ = V c main_v12 _
  refine congrArg (V c main_v12) (funext fun a => Fin.ext ?_)
  match a with
  | ⟨0, _⟩ => show win2_1.index t (0 : Fin 2) * 4000 + 1 * (y 0).val = (i 0).val; rw [e0, hi0]; omega
  | ⟨1, _⟩ => show win2_1.index t (1 : Fin 2) * 128 + 1 * (y 1).val = (i 1).val; rw [e1, hi1]; omega

/-- The node-feature block at point t is rows 4000 t onwards of its array. -/
theorem rows2_2 (c : Dev nD) (t : Fin cfg2.N) (y : S4000x128.Idx) (i : S100000x128.Idx)
    (hi0 : (i 0).val = t.val * 4000 + (y 0).val) (hi1 : (i 1).val = (y 1).val) :
    (iblk2 V c 2 t : Vec Ideal S4000x128 .f32) y = (V c main_v35 : S100000x128.Idx → EReal) i := by
  obtain ⟨-, -, -, -, e0, e1, -⟩ := blockIndex2 t
  unfold iblk2
  rw [View.read_apply]
  show V c main_v35 _ = V c main_v35 _
  refine congrArg (V c main_v35) (funext fun a => Fin.ext ?_)
  match a with
  | ⟨0, _⟩ => show win2_2.index t (0 : Fin 2) * 4000 + 1 * (y 0).val = (i 0).val; rw [e0, hi0]; omega
  | ⟨1, _⟩ => show win2_2.index t (1 : Fin 2) * 128 + 1 * (y 1).val = (i 1).val; rw [e1, hi1]; omega

/-- The matrix window holds the whole matrix at every point. -/
theorem whole2_3 (c : Dev nD) (t : Fin cfg2.N) (y : S128x128.Idx) :
    (iblk2 V c 3 t : Vec Ideal S128x128 .f32) y = (V c main_v13 : S128x128.Idx → EReal) y := by
  obtain ⟨-, -, -, -, -, -, e0, e1, -⟩ := blockIndex2 t
  unfold iblk2
  rw [View.read_apply]
  show V c main_v13 _ = V c main_v13 _
  refine congrArg (V c main_v13) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias window holds the whole bias at every point. -/
theorem whole2_4 (c : Dev nD) (t : Fin cfg2.N) (y : S128.Idx) :
    (iblk2 V c 4 t : Vec Ideal S128 .f32) y = (V c main_arg3 : S128.Idx → EReal) y := by
  obtain ⟨-, -, -, -, -, -, -, -, e0, -⟩ := blockIndex2 t
  unfold iblk2
  rw [View.read_apply]
  show V c main_arg3 _ = V c main_arg3 _
  refine congrArg (V c main_arg3) (funext fun a => Fin.ext ?_)
  match a with
  | ⟨0, _⟩ => show win2_4.index t (0 : Fin 1) * 128 + 1 * (y 0).val = (y 0).val; rw [e0]; omega

/-! ## What a point writes back -/

/-- Point t writes back rows 4000 t onwards of one round of the arrays the region found. -/
theorem flushed2_eq (c : Dev nD) (t : Fin cfg2.N) :
    (dat2 V c).flushed 5 t = ((cfg2.win 5).blk t).view.read (Elt Ideal)
      (Cert.MsgStep.step (V c main_v45) (V c main_v12) (V c main_v35) (V c main_v13) (V c main_arg3)) := by
  show (cfg2.win 5).cut (grid2.coords t) ((dat2 V c).after 5 t) = _
  rw [after2_5]
  unfold out2_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex2 t
  funext j
  show k2_pay1 (F := Ideal) (iblk2 V c 0 t) (iblk2 V c 1 t) (iblk2 V c 3 t) (iblk2 V c 4 t) (iblk2 V c 2 t) j
    = Cert.MsgStep.step (V c main_v45) (V c main_v12) (V c main_v35) (V c main_v13) (V c main_arg3) (((cfg2.win 5).blk t).view.emb j)
  exact k2_block (iblk2 V c 0 t) (iblk2 V c 1 t) (iblk2 V c 2 t) (iblk2 V c 3 t) (iblk2 V c 4 t)
    (V c main_v45) (V c main_v12) (V c main_v35) (V c main_v13) (V c main_arg3) t.val
    (fun y i h0 h1 => rows2_0 V c t y i h0 h1) (fun y i h0 h1 => rows2_1 V c t y i h0 h1) (fun y i h0 h1 => rows2_2 V c t y i h0 h1)
    (fun y => whole2_3 V c t y) (fun y => whole2_4 V c t y) j (((cfg2.win 5).blk t).view.emb j)
    (by show win2_5.index t (0 : Fin 2) * 4000 + 1 * (j 0).val = t.val * 4000 + (j 0).val; rw [e0]; omega)
    (by show win2_5.index t (1 : Fin 2) * 128 + 1 * (j 1).val = (j 1).val; rw [e1]; omega)

/-! ## The blocks cover the array -/

/-- An index of the result is in point t's block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v46).slice (win2_5.rect t)).set ↔ _
  rw [View.set_slice_whole, Rect.mem_set_unit]
  exact Iff.rfl

/-- Node n is in the block of point n / 4000. -/
theorem cover2 (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have hq : (i 0).val / 4000 < cfg2.N := lt_of_lt_of_eq (by omega : (i 0).val / 4000 < 25) N_2.symm
  obtain ⟨-, -, -, -, -, -, -, -, -, e0, e1⟩ := blockIndex2 ⟨(i 0).val / 4000, hq⟩
  refine ⟨⟨(i 0).val / 4000, hq⟩, flush2_5 _, ?_⟩
  rw [mem_blk2]
  intro a
  match a with
  | ⟨0, _⟩ =>
    show win2_5.index ⟨(i 0).val / 4000, hq⟩ (0 : Fin 2) * 4000 ≤ (i 0).val
      ∧ (i 0).val < win2_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, hq⟩ (1 : Fin 2) * 128 ≤ (i 1).val
      ∧ (i 1).val < win2_5.index ⟨(i 0).val / 4000, hq⟩ (1 : Fin 2) * 128 + 128
    rw [e1]; omega

/-! ## The array after the region -/

/-- After region 2 the result array is one round of message passing of the arrays the region found. -/
theorem region2 (c : Dev nD) :
    (dat2 (F := Ideal) V c).arrAt 5 cfg2.N
      = Cert.MsgStep.step (V c main_v45) (V c main_v12) (V c main_v35) (V c main_v13) (V c main_arg3) :=
  (dat2 (F := Ideal) V c).arrAt_eq_of_cover 5
    (Cert.MsgStep.step (V c main_v45) (V c main_v12) (V c main_v35) (V c main_v13) (V c main_arg3))
    (fun t _ => flushed2_eq V c t) cover2

end Cert.KernelIdeal.RegionValue

end
-- ==== Proof.Region3.lean ====
/-
  The array that region 3 leaves behind.

  Region 3 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 3 has 25 points. -/
theorem point3_lt (t : Fin cfg3.N) : t.val < 25 := lt_of_lt_of_eq t.isLt N_3

/-- The block index of each window at each of the 25 points: the node-indexed windows and the output are at block
    (t, 0), the matrix and the bias at block 0. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-! ## The input blocks as rows of their arrays -/

/-- The neighbour-sum block at point t is rows 4000 t onwards of its array. -/
theorem rows3_0 (c : Dev nD) (t : Fin cfg3.N) (y : S4000x128.Idx) (i : S100000x128.Idx)
    (hi0 : (i 0).val = t.val * 4000 + (y 0).val) (hi1 : (i 1).val = (y 1).val) :
    (iblk3 V c 0 t : Vec Ideal S4000x128 .f32) y = (V c main_v56 : S100000x128.Idx → EReal) i := by
  obtain ⟨e0, e1, -⟩ := blockIndex3 t
  unfold iblk3
  rw [View.read_apply]
  show V c main_v56 _ = V c main_v56 _
  refine congrArg (V c main_v56) (funext fun a => Fin.ext ?_)
  match a with
  | ⟨0, _⟩ => show win3_0.index t (0 : Fin 2) * 4000 + 1 * (y 0).val = (i 0).val; rw [e0, hi0]; omega
  | ⟨1, _⟩ => show win3_0.index t (1 : Fin 2) * 128 + 1 * (y 1).val = (i 1).val; rw [e1, hi1]; omega

/-- The reciprocal-degree block at point t is rows 4000 t onwards of its array. -/
theorem rows3_1 (c : Dev nD) (t : Fin cfg3.N) (y : S4000x128.Idx) (i : S100000x128.Idx)
    (hi0 : (i 0).val = t.val * 4000 + (y 0).val) (hi1 : (i 1).val = (y 1).val) :
    (iblk3 V c 1 t : Vec Ideal S4000x128 .f32) y = (V c main_v12 : S100000x128.Idx → EReal) i := by
  obtain ⟨-, -, e0, e1, -⟩ := blockIndex3 t
  unfold iblk3
  rw [View.read_apply]
  show V c main_v12 _ = V c main_v12 _
  refine congrArg (V c main_v12) (funext fun a => Fin.ext ?_)
  match a with
  | ⟨0, _⟩ => show win3_1.index t (0 : Fin 2) * 4000 + 1 * (y 0).val = (i 0).val; rw [e0, hi0]; omega
  | ⟨1, _⟩ => show win3_1.index t (1 : Fin 2) * 128 + 1 * (y 1).val = (i 1).val; rw [e1, hi1]; omega

/-- The node-feature block at point t is rows 4000 t onwards of its array. -/
theorem rows3_2 (c : Dev nD) (t : Fin cfg3.N) (y : S4000x128.Idx) (i : S100000x128.Idx)
    (hi0 : (i 0).val = t.val * 4000 + (y 0).val) (hi1 : (i 1).val = (y 1).val) :
    (iblk3 V c 2 t : Vec Ideal S4000x128 .f32) y = (V c main_v46 : S100000x128.Idx → EReal) i := by
  obtain ⟨-, -, -, -, e0, e1, -⟩ := blockIndex3 t
  unfold iblk3
  rw [View.read_apply]
  show V c main_v46 _ = V c main_v46 _
  refine congrArg (V c main_v46) (funext fun a => Fin.ext ?_)
  match a with
  | ⟨0, _⟩ => show win3_2.index t (0 : Fin 2) * 4000 + 1 * (y 0).val = (i 0).val; rw [e0, hi0]; omega
  | ⟨1, _⟩ => show win3_2.index t (1 : Fin 2) * 128 + 1 * (y 1).val = (i 1).val; rw [e1, hi1]; omega

/-- The matrix window holds the whole matrix at every point. -/
theorem whole3_3 (c : Dev nD) (t : Fin cfg3.N) (y : S128x128.Idx) :
    (iblk3 V c 3 t : Vec Ideal S128x128 .f32) y = (V c main_v13 : S128x128.Idx → EReal) y := by
  obtain ⟨-, -, -, -, -, -, e0, e1, -⟩ := blockIndex3 t
  unfold iblk3
  rw [View.read_apply]
  show V c main_v13 _ = V c main_v13 _
  refine congrArg (V c main_v13) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The bias window holds the whole bias at every point. -/
theorem whole3_4 (c : Dev nD) (t : Fin cfg3.N) (y : S128.Idx) :
    (iblk3 V c 4 t : Vec Ideal S128 .f32) y = (V c main_arg3 : S128.Idx → EReal) y := by
  obtain ⟨-, -, -, -, -, -, -, -, e0, -⟩ := blockIndex3 t
  unfold iblk3
  rw [View.read_apply]
  show V c main_arg3 _ = V c main_arg3 _
  refine congrArg (V c main_arg3) (funext fun a => Fin.ext ?_)
  match a with
  | ⟨0, _⟩ => show win3_4.index t (0 : Fin 1) * 128 + 1 * (y 0).val = (y 0).val; rw [e0]; omega

/-! ## What a point writes back -/

/-- Point t writes back rows 4000 t onwards of one round of the arrays the region found. -/
theorem flushed3_eq (c : Dev nD) (t : Fin cfg3.N) :
    (dat3 V c).flushed 5 t = ((cfg3.win 5).blk t).view.read (Elt Ideal)
      (Cert.MsgStep.step (V c main_v56) (V c main_v12) (V c main_v46) (V c main_v13) (V c main_arg3)) := by
  show (cfg3.win 5).cut (grid3.coords t) ((dat3 V c).after 5 t) = _
  rw [after3_5]
  unfold out3_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex3 t
  funext j
  show k3_pay1 (F := Ideal) (iblk3 V c 0 t) (iblk3 V c 1 t) (iblk3 V c 3 t) (iblk3 V c 4 t) (iblk3 V c 2 t) j
    = Cert.MsgStep.step (V c main_v56) (V c main_v12) (V c main_v46) (V c main_v13) (V c main_arg3) (((cfg3.win 5).blk t).view.emb j)
  exact k3_block (iblk3 V c 0 t) (iblk3 V c 1 t) (iblk3 V c 2 t) (iblk3 V c 3 t) (iblk3 V c 4 t)
    (V c main_v56) (V c main_v12) (V c main_v46) (V c main_v13) (V c main_arg3) t.val
    (fun y i h0 h1 => rows3_0 V c t y i h0 h1) (fun y i h0 h1 => rows3_1 V c t y i h0 h1) (fun y i h0 h1 => rows3_2 V c t y i h0 h1)
    (fun y => whole3_3 V c t y) (fun y => whole3_4 V c t y) j (((cfg3.win 5).blk t).view.emb j)
    (by show win3_5.index t (0 : Fin 2) * 4000 + 1 * (j 0).val = t.val * 4000 + (j 0).val; rw [e0]; omega)
    (by show win3_5.index t (1 : Fin 2) * 128 + 1 * (j 1).val = (j 1).val; rw [e1]; omega)

/-! ## The blocks cover the array -/

/-- An index of the result is in point t's block iff each coordinate is in the block's range on its axis. -/
theorem mem_blk3 (t : Fin cfg3.N) (i : S100000x128.Idx) :
    i ∈ ((cfg3.win 5).blk t).view.set ↔ ∀ a : Fin 2, win3_5.index t a * S4000x128.size a ≤ (i a).val
      ∧ (i a).val < win3_5.index t a * S4000x128.size a + S4000x128.size a := by
  show i ∈ ((View.whole main_v57).slice (win3_5.rect t)).set ↔ _
  rw [View.set_slice_whole, Rect.mem_set_unit]
  exact Iff.rfl

/-- Node n is in the block of point n / 4000. -/
theorem cover3 (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hq : (i 0).val / 4000 < cfg3.N := lt_of_lt_of_eq (by omega : (i 0).val / 4000 < 25) N_3.symm
  obtain ⟨-, -, -, -, -, -, -, -, -, e0, e1⟩ := blockIndex3 ⟨(i 0).val / 4000, hq⟩
  refine ⟨⟨(i 0).val / 4000, hq⟩, flush3_5 _, ?_⟩
  rw [mem_blk3]
  intro a
  match a with
  | ⟨0, _⟩ =>
    show win3_5.index ⟨(i 0).val / 4000, hq⟩ (0 : Fin 2) * 4000 ≤ (i 0).val
      ∧ (i 0).val < win3_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, hq⟩ (1 : Fin 2) * 128 ≤ (i 1).val
      ∧ (i 1).val < win3_5.index ⟨(i 0).val / 4000, hq⟩ (1 : Fin 2) * 128 + 128
    rw [e1]; omega

/-! ## The array after the region -/

/-- After region 3 the result array is one round of message passing of the arrays the region found. -/
theorem region3 (c : Dev nD) :
    (dat3 (F := Ideal) V c).arrAt 5 cfg3.N
      = Cert.MsgStep.step (V c main_v56) (V c main_v12) (V c main_v46) (V c main_v13) (V c main_arg3) :=
  (dat3 (F := Ideal) V c).arrAt_eq_of_cover 5
    (Cert.MsgStep.step (V c main_v56) (V c main_v12) (V c main_v46) (V c main_v13) (V c main_arg3))
    (fun t _ => flushed3_eq V c t) cover3

end Cert.KernelIdeal.RegionValue

end
-- ==== Proof.Region4.lean ====
/-
  The array that region 4 leaves behind.

  Region 4 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 4 has 25 points. -/
theorem point4_lt (t : Fin cfg4.N) : t.val < 25 := lt_of_lt_of_eq t.isLt N_4

/-- The block index of each window at each of the 25 points: the node-indexed windows and the output are at block
    (t, 0), the matrix and the bias at block 0. -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-! ## The input blocks as rows of their arrays -/

/-- The neighbour-sum block at point t is rows 4000 t onwards of its array. -/
theorem rows4_0 (c : Dev nD) (t : Fin cfg4.N) (y : S4000x128.Idx) (i : S100000x128.Idx)
    (hi0 : (i 0).val = t.val * 4000 + (y 0).val) (hi1 : (i 1).val = (y 1).val) :
    (iblk4 V c 0 t : Vec Ideal S4000x128 .f32) y = (V c main_v67 : S100000x128.Idx → EReal) i := by
  obtain ⟨e0, e1, -⟩ := blockIndex4 t
  unfold iblk4
  rw [View.read_apply]
  show V c main_v67 _ = V c main_v67 _
  refine congrArg (V c main_v67) (funext fun a => Fin.ext ?_)
  match a with
  | ⟨0, _⟩ => show win4_0.index t (0 : Fin 2) * 4000 + 1 * (y 0).val = (i 0).val; rw [e0, hi0]; omega
  | ⟨1, _⟩ => show win4_0.index t (1 : Fin 2) * 128 + 1 * (y 1).val = (i 1).val; rw [e1, hi1]; omega

/-- The reciprocal-degree block at point t is rows 4000 t onwards of its array. -/
theorem rows4_1 (c : Dev nD) (t : Fin cfg4.N) (y : S4000x128.Idx) (i : S100000x128.Idx)
    (hi0 : (i 0).val = t.val * 4000 + (y 0).val) (hi1 : (i 1).val = (y 1).val) :
    (iblk4 V c 1 t : Vec Ideal S4000x128 .f32) y = (V c main_v12 : S100000x128.Idx → EReal) i := by
  obtain ⟨-, -, e0, e1, -⟩ := blockIndex4 t
  unfold iblk4
  rw [View.read_apply]
  show V c main_v12 _ = V c main_v12 _
  refine congrArg (V c main_v12) (funext fun a => Fin.ext ?_)
  match a with
  | ⟨0, _⟩ => show win4_1.index t (0 : Fin 2) * 4000 + 1 * (y 0).val = (i 0).val; rw [e0, hi0]; omega
  | ⟨1, _⟩ => show win4_1.index t (1 : Fin 2) * 128 + 1 * (y 1).val = (i 1).val; rw [e1, hi1]; omega

/-- The node-feature block at point t is rows 4000 t onwards of its array. -/
theorem rows4_2 (c : Dev nD) (t : Fin cfg4.N) (y : S4000x128.Idx) (i : S100000x128.Idx)
    (hi0 : (i 0).val = t.val * 4000 + (y 0).val) (hi1 : (i 1).val = (y 1).val) :
    (iblk4 V c 2 t : Vec Ideal S4000x128 .f32) y = (V c main_v57 : S100000x128.Idx → EReal) i := by
  obtain ⟨-, -, -, -, e0, e1, -⟩ := blockIndex4 t
  unfold iblk4
  rw [View.read_apply]
  show V c main_v57 _ = V c main_v57 _
  refine congrArg (V c main_v57) (funext fun a => Fin.ext ?_)
  match a with
  | ⟨0, _⟩ => show win4_2.index t (0 : Fin 2) * 4000 + 1 * (y 0).val = (i 0).val; rw [e0, hi0]; omega
  | ⟨1, _⟩ => show win4_2.index t (1 : Fin 2) * 128 + 1 * (y 1).val = (i 1).val; rw [e1, hi1]; omega

/-- The matrix window holds the whole matrix at every point. -/
theorem whole4_3 (c : Dev nD) (t : Fin cfg4.N) (y : S128x128.Idx) :
    (iblk4 V c 3 t : Vec Ideal S128x128 .f32) y = (V c main_v13 : S128x128.Idx → EReal) y := by
  obtain ⟨-, -, -, -, -, -, e0, e1, -⟩ := blockIndex4 t
  unfold iblk4
  rw [View.read_apply]
  show V c main_v13 _ = V c main_v13 _
  refine congrArg (V c main_v13) (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- The bias window holds the whole bias at every point. -/
theorem whole4_4 (c : Dev nD) (t : Fin cfg4.N) (y : S128.Idx) :
    (iblk4 V c 4 t : Vec Ideal S128 .f32) y = (V c main_arg3 : S128.Idx → EReal) y := by
  obtain ⟨-, -, -, -, -, -, -, -, e0, -⟩ := blockIndex4 t
  unfold iblk4
  rw [View.read_apply]
  show V c main_arg3 _ = V c main_arg3 _
  refine congrArg (V c main_arg3) (funext fun a => Fin.ext ?_)
  match a with
  | ⟨0, _⟩ => show win4_4.index t (0 : Fin 1) * 128 + 1 * (y 0).val = (y 0).val; rw [e0]; omega

/-! ## What a point writes back -/

/-- Point t writes back rows 4000 t onwards of one round of the arrays the region found. -/
theorem flushed4_eq (c : Dev nD) (t : Fin cfg4.N) :
    (dat4 V c).flushed 5 t = ((cfg4.win 5).blk t).view.read (Elt Ideal)
      (Cert.MsgStep.step (V c main_v67) (V c main_v12) (V c main_v57) (V c main_v13) (V c main_arg3)) := by
  show (cfg4.win 5).cut (grid4.coords t) ((dat4 V c).after 5 t) = _
  rw [after4_5]
  unfold out4_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex4 t
  funext j
  show k4_pay1 (F := Ideal) (iblk4 V c 0 t) (iblk4 V c 1 t) (iblk4 V c 3 t) (iblk4 V c 4 t) (iblk4 V c 2 t) j
    = Cert.MsgStep.step (V c main_v67) (V c main_v12) (V c main_v57) (V c main_v13) (V c main_arg3) (((cfg4.win 5).blk t).view.emb j)
  exact k4_block (iblk4 V c 0 t) (iblk4 V c 1 t) (iblk4 V c 2 t) (iblk4 V c 3 t) (iblk4 V c 4 t)
    (V c main_v67) (V c main_v12) (V c main_v57) (V c main_v13) (V c main_arg3) t.val
    (fun y i h0 h1 => rows4_0 V c t y i h0 h1) (fun y i h0 h1 => rows4_1 V c t y i h0 h1) (fun y i h0 h1 => rows4_2 V c t y i h0 h1)
    (fun y => whole4_3 V c t y) (fun y => whole4_4 V c t y) j (((cfg4.win 5).blk t).view.emb j)
    (by show win4_5.index t (0 : Fin 2) * 4000 + 1 * (j 0).val = t.val * 4000 + (j 0).val; rw [e0]; omega)
    (by show win4_5.index t (1 : Fin 2) * 128 + 1 * (j 1).val = (j 1).val; rw [e1]; omega)

/-! ## The blocks cover the array -/

/-- An index of the result is in point t's block iff each coordinate is in the block's range on its axis. -/
theorem mem_blk4 (t : Fin cfg4.N) (i : S100000x128.Idx) :
    i ∈ ((cfg4.win 5).blk t).view.set ↔ ∀ a : Fin 2, win4_5.index t a * S4000x128.size a ≤ (i a).val
      ∧ (i a).val < win4_5.index t a * S4000x128.size a + S4000x128.size a := by
  show i ∈ ((View.whole main_v68).slice (win4_5.rect t)).set ↔ _
  rw [View.set_slice_whole, Rect.mem_set_unit]
  exact Iff.rfl

/-- Node n is in the block of point n / 4000. -/
theorem cover4 (i : S100000x128.Idx) :
    ∃ t : Fin cfg4.N, (cfg4.win 5).flush t = true ∧ i ∈ ((cfg4.win 5).blk t).view.set := by
  have hi0 : (i 0).val < 100000 := idx2_lt0 i
  have hi1 : (i 1).val < 128 := idx2_lt1 i
  have hq : (i 0).val / 4000 < cfg4.N := lt_of_lt_of_eq (by omega : (i 0).val / 4000 < 25) N_4.symm
  obtain ⟨-, -, -, -, -, -, -, -, -, e0, e1⟩ := blockIndex4 ⟨(i 0).val / 4000, hq⟩
  refine ⟨⟨(i 0).val / 4000, hq⟩, flush4_5 _, ?_⟩
  rw [mem_blk4]
  intro a
  match a with
  | ⟨0, _⟩ =>
    show win4_5.index ⟨(i 0).val / 4000, hq⟩ (0 : Fin 2) * 4000 ≤ (i 0).val
      ∧ (i 0).val < win4_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win4_5.index ⟨(i 0).val / 4000, hq⟩ (1 : Fin 2) * 128 ≤ (i 1).val
      ∧ (i 1).val < win4_5.index ⟨(i 0).val / 4000, hq⟩ (1 : Fin 2) * 128 + 128
    rw [e1]; omega

/-! ## The array after the region -/

/-- After region 4 the result array is one round of message passing of the arrays the region found. -/
theorem region4 (c : Dev nD) :
    (dat4 (F := Ideal) V c).arrAt 5 cfg4.N
      = Cert.MsgStep.step (V c main_v67) (V c main_v12) (V c main_v57) (V c main_v13) (V c main_arg3) :=
  (dat4 (F := Ideal) V c).arrAt_eq_of_cover 5
    (Cert.MsgStep.step (V c main_v67) (V c main_v12) (V c main_v57) (V c main_v13) (V c main_arg3))
    (fun t _ => flushed4_eq V c t) cover4

end Cert.KernelIdeal.RegionValue

end
-- ==== Proof.Region5.lean ====
/-
  The array that region 5 leaves behind.

  Region 5 runs the block computation at the 25 points of its grid. At point t the three node-indexed windows
  (the neighbour sums, the reciprocal degrees, the node features) hold rows 4000 t, ..., 4000 t + 3999 of their
  arrays, the matrix and the bias windows hold their whole arrays, and the output window's block, rows 4000 t
  onwards of the result, is written back. A block's element at (r, h) sits in the array at (4000 t + r, h).
  Every node n lies in exactly the block of point n / 4000, so the 25 written blocks cover the result array, and
  each is the corresponding rows of ONE function of the arrays the region found: one round of message passing.
  Hence the result array after the region is that round.
-/
import proofs.«172677_j33947421507739_1_alg».proof.Proof.Gen.KernelIdeal.Frame
import proofs.«172677_j33947421507739_1_alg».proof.Proof.Step
import proofs.«172677_j33947421507739_1_alg».proof.Proof.Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The grid of region 5 has 25 points. -/
theorem point5_lt (t : Fin cfg5.N) : t.val < 25 := lt_of_lt_of_eq t.isLt N_5

/-- The block index of each window at each of the 25 points: the node-indexed windows and the output are at block
    (t, 0), the matrix and the bias at block 0. -/
theorem blockIndex5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-! ## The input blocks as rows of their arrays -/

/-- The neighbour-sum block at point t is rows 4000 t onwards of its array. -/
theorem rows5_0 (c : Dev nD) (t : Fin cfg5.N) (y : S4000x128.Idx) (i : S100000x128.Idx)
    (hi0 : (i 0).val = t.val * 4000 + (y 0).val) (hi1 : (i 1).val = (y 1).val) :
    (iblk5 V c 0 t : Vec Ideal S4000x128 .f32) y = (V c main_v78 : S100000x128.Idx → EReal) i := by
  obtain ⟨e0, e1, -⟩ := blockIndex5 t
  unfold iblk5
  rw [View.read_apply]
  show V c main_v78 _ = V c main_v78 _
  refine congrArg (V c main_v78) (funext fun a => Fin.ext ?_)
  match a with
  | ⟨0, _⟩ => show win5_0.index t (0 : Fin 2) * 4000 + 1 * (y 0).val = (i 0).val; rw [e0, hi0]; omega
  | ⟨1, _⟩ => show win5_0.index t (1 : Fin 2) * 128 + 1 * (y 1).val = (i 1).val; rw [e1, hi1]; omega

/-- The reciprocal-degree block at point t is rows 4000 t onwards of its array. -/
theorem rows5_1 (c : Dev nD) (t : Fin cfg5.N) (y : S4000x128.Idx) (i : S100000x128.Idx)
    (hi0 : (i 0).val = t.val * 4000 + (y 0).val) (hi1 : (i 1).val = (y 1).val) :
    (iblk5 V c 1 t : Vec Ideal S4000x128 .f32) y = (V c main_v12 : S100000x128.Idx → EReal) i := by
  obtain ⟨-, -, e0, e1, -⟩ := blockIndex5 t
  unfold iblk5
  rw [View.read_apply]
  show V c main_v12 _ = V c main_v12 _
  refine congrArg (V c main_v12) (funext fun a => Fin.ext ?_)
  match a with
  | ⟨0, _⟩ => show win5_1.index t (0 : Fin 2) * 4000 + 1 * (y 0).val = (i 0).val; rw [e0, hi0]; omega
  | ⟨1, _⟩ => show win5_1.index t (1 : Fin 2) * 128 + 1 * (y 1).val = (i 1).val; rw [e1, hi1]; omega

/-- The node-feature block at point t is rows 4000 t onwards of its array. -/
theorem rows5_2 (c : Dev nD) (t : Fin cfg5.N) (y : S4000x128.Idx) (i : S100000x128.Idx)
    (hi0 : (i 0).val = t.val * 4000 + (y 0).val) (hi1 : (i 1).val = (y 1).val) :
    (iblk5 V c 2 t : Vec Ideal S4000x128 .f32) y = (V c main_v68 : S100000x128.Idx → EReal) i := by
  obtain ⟨-, -, -, -, e0, e1, -⟩ := blockIndex5 t
  unfold iblk5
  rw [View.read_apply]
  show V c main_v68 _ = V c main_v68 _
  refine congrArg (V c main_v68) (funext fun a => Fin.ext ?_)
  match a with
  | ⟨0, _⟩ => show win5_2.index t (0 : Fin 2) * 4000 + 1 * (y 0).val = (i 0).val; rw [e0, hi0]; omega
  | ⟨1, _⟩ => show win5_2.index t (1 : Fin 2) * 128 + 1 * (y 1).val = (i 1).val; rw [e1, hi1]; omega

/-- The matrix window holds the whole matrix at every point. -/
theorem whole5_3 (c : Dev nD) (t : Fin cfg5.N) (y : S128x128.Idx) :
    (iblk5 V c 3 t : Vec Ideal S128x128 .f32) y = (V c main_v13 : S128x128.Idx → EReal) y := by
  obtain ⟨-, -, -, -, -, -, e0, e1, -⟩ := blockIndex5 t
  unfold iblk5
  rw [View.read_apply]
  show V c main_v13 _ = V c main_v13 _
  refine congrArg (V c main_v13) (funext fun a => Fin.ext ?_)
  match a with
  | ⟨0, _⟩ => show win5_3.index t (0 : Fin 2) * 128 + 1 * (y 0).val = (y 0).val; rw [e0]; omega
  | ⟨1, _⟩ => show win5_3.index t (1 : Fin 2) * 128 + 1 * (y 1).val = (y 1).val; rw [e1]; omega

/-- The bias window holds the whole bias at every point. -/
theorem whole5_4 (c : Dev nD) (t : Fin cfg5.N) (y : S128.Idx) :
    (iblk5 V c 4 t : Vec Ideal S128 .f32) y = (V c main_arg3 : S128.Idx → EReal) y := by
  obtain ⟨-, -, -, -, -, -, -, -, e0, -⟩ := blockIndex5 t
  unfold iblk5
  rw [View.read_apply]
  show V c main_arg3 _ = V c main_arg3 _
  refine congrArg (V c main_arg3) (funext fun a => Fin.ext ?_)
  match a with
  | ⟨0, _⟩ => show win5_4.index t (0 : Fin 1) * 128 + 1 * (y 0).val = (y 0).val; rw [e0]; omega

/-! ## What a point writes back -/

/-- Point t writes back rows 4000 t onwards of one round of the arrays the region found. -/
theorem flushed5_eq (c : Dev nD) (t : Fin cfg5.N) :
    (dat5 V c).flushed 5 t = ((cfg5.win 5).blk t).view.read (Elt Ideal)
      (Cert.MsgStep.step (V c main_v78) (V c main_v12) (V c main_v68) (V c main_v13) (V c main_arg3)) := by
  show (cfg5.win 5).cut (grid5.coords t) ((dat5 V c).after 5 t) = _
  rw [after5_5]
  unfold out5_5
  rw [View.canon_unit_zero zeros2]
  simp only [View.ld_unit_zero (S := S4000x128) zeros2, View.ld_unit_zero (S := S128x128) zeros2, View.ld_unit_zero (S := S128) zeros1]
  obtain ⟨-, -, -, -, -, -, -, -, -, e0, e1⟩ := blockIndex5 t
  funext j
  show k5_pay1 (F := Ideal) (iblk5 V c 0 t) (iblk5 V c 1 t) (iblk5 V c 3 t) (iblk5 V c 4 t) (iblk5 V c 2 t) j
    = Cert.MsgStep.step (V c main_v78) (V c main_v12) (V c main_v68) (V c main_v13) (V c main_arg3) (((cfg5.win 5).blk t).view.emb j)
  exact k5_block (iblk5 V c 0 t) (iblk5 V c 1 t) (iblk5 V c 2 t) (iblk5 V c 3 t) (iblk5 V c 4 t)
    (V c main_v78) (V c main_v12) (V c main_v68) (V c main_v13) (V c main_arg3) t.val
    (fun y i h0 h1 => rows5_0 V c t y i h0 h1) (fun y i h0 h1 => rows5_1 V c t y i h0 h1) (fun y i h0 h1 => rows5_2 V c t y i h0 h1)
    (fun y => whole5_3 V c t y) (fun y => whole5_4 V c t y) j (((cfg5.win 5).blk t).view.emb j)
    (by show win5_5.index t (0 : Fin 2) * 4000 + 1 * (j 0).val = t.val * 4000 + (j 0).val; rw [e0]; omega)
    (by show win5_5.index t (1 : Fin 2) * 128 + 1 * (j 1).val = (j 1).val; rw [e1]; omega)

/-! ## The blocks cover the array -/

/-- An index of the result is in point t's block iff each coordinate is in the block's range on its axis. -/
theorem mem_blk5 (t : Fin cfg5.N) (i : S100000x128.Idx) :
    i ∈ ((cfg5.win 5).blk t).view.set ↔ ∀ a : Fin 2, win5_5.index t a * S4000x128.size a ≤ (i a).val
      ∧ (i a).val < win5_5.index t a * S4000x128.size a + S4000x128.size a := by
  show i ∈ ((View.whole main_v79).slice (win5_5.rect t)).set ↔ _
  rw [View.set_slice_whole, Rect.mem_set_unit]
  exact Iff.rfl

/-- Node n is in the block of point n / 4000. -/
theorem cover5 (i : S100000x128.Idx) :
    ∃ t : Fin cfg5.N, (cfg5.win 5).flush t = true ∧ i ∈ ((cfg5.win 5).blk t).view.set := by
  have hi0 : (i 0).val < 100000 := idx2_lt0 i
  have hi1 : (i 1).val < 128 := idx2_lt1 i
  have hq : (i 0).val / 4000 < cfg5.N := lt_of_lt_of_eq (by omega : (i 0).val / 4000 < 25) N_5.symm
  obtain ⟨-, -, -, -, -, -, -, -, -, e0, e1⟩ := blockIndex5 ⟨(i 0).val / 4000, hq⟩
  refine ⟨⟨(i 0).val / 4000, hq⟩, flush5_5 _, ?_⟩
  rw [mem_blk5]
  intro a
  match a with
  | ⟨0, _⟩ =>
    show win5_5.index ⟨(i 0).val / 4000, hq⟩ (0 : Fin 2) * 4000 ≤ (i 0).val
      ∧ (i 0).val < win5_5.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win5_5.index ⟨(i 0).val / 4000, hq⟩ (1 : Fin 2) * 128 ≤ (i 1).val
      ∧ (i 1).val < win5_5.index ⟨(i 0).val / 4000, hq⟩ (1 : Fin 2) * 128 + 128
    rw [e1]; omega

/-! ## The array after the region -/

/-- After region 5 the result array is one round of message passing of the arrays the region found. -/
theorem region5 (c : Dev nD) :
    (dat5 (F := Ideal) V c).arrAt 5 cfg5.N
      = Cert.MsgStep.step (V c main_v78) (V c main_v12) (V c main_v68) (V c main_v13) (V c main_arg3) :=
  (dat5 (F := Ideal) V c).arrAt_eq_of_cover 5
    (Cert.MsgStep.step (V c main_v78) (V c main_v12) (V c main_v68) (V c main_v13) (V c main_arg3))
    (fun t _ => flushed5_eq V c t) cover5

end Cert.KernelIdeal.RegionValue

end
-- ==== Proof.FoldChain.lean ====
/-
  The kernel program's result as six rounds. At every launch's entry the same five arrays — the edges' source
  and destination rows, the reciprocal clipped in-degrees, the transposed weights, the bias — stand beside the
  current features and their neighbour sum: the host operations before a launch only compute the neighbour sum,
  and a launch writes only its output array, which is one round of its inputs. By induction along the program the
  features at launch p's entry are the input features after p rounds, and the result array is the sixth.
-/
import proofs.«172677_j33947421507739_1_alg».proof.Proof.Gen.KernelIdeal.Frame
import proofs.«172677_j33947421507739_1_alg».proof.Proof.KernelHost
import proofs.«172677_j33947421507739_1_alg».proof.Proof.Stretch0
import proofs.«172677_j33947421507739_1_alg».proof.Proof.Stretch1
import proofs.«172677_j33947421507739_1_alg».proof.Proof.Stretch2
import proofs.«172677_j33947421507739_1_alg».proof.Proof.Stretch3
import proofs.«172677_j33947421507739_1_alg».proof.Proof.Stretch4
import proofs.«172677_j33947421507739_1_alg».proof.Proof.Stretch5
import proofs.«172677_j33947421507739_1_alg».proof.Proof.Region0
import proofs.«172677_j33947421507739_1_alg».proof.Proof.Region1
import proofs.«172677_j33947421507739_1_alg».proof.Proof.Region2
import proofs.«172677_j33947421507739_1_alg».proof.Proof.Region3
import proofs.«172677_j33947421507739_1_alg».proof.Proof.Region4
import proofs.«172677_j33947421507739_1_alg».proof.Proof.Region5

set_option maxRecDepth 16384

noncomputable section

namespace Cert.KernelIdeal.Fold

open Idealize.ShloMosaic Idealize.ShloMosaic.TcCoe
open Idealize.SL.Sem
open Idealize.ShloMosaic.Pipeline (Dat Cfg Window)
open Idealize.ShloMosaic.StableHlo
open Cert.KernelIdeal Cert.KernelIdeal.Gen Cert.KernelIdeal.HostFns Cert.KernelIdeal.Stretch Cert.KernelIdeal.RegionValue

variable (m : (ℓ : Loc nD τ sig) → Buf (Elt Ideal) ℓ) (ρ : Dev nD → PrngReg) (c : Dev nD)

/-- The four argument arrays as launched. -/
abbrev A0 : TNodes := m ((c.tc : Thread nD τ).loc main_arg0)
abbrev A1 : (⟨S2x1600000, .i32⟩ : BufTy).Contents (Elt Ideal) := m ((c.tc : Thread nD τ).loc main_arg1)
abbrev A2 : (⟨S128x128, .f32⟩ : BufTy).Contents (Elt Ideal) := m ((c.tc : Thread nD τ).loc main_arg2)
abbrev A3 : (⟨S128, .f32⟩ : BufTy).Contents (Elt Ideal) := m ((c.tc : Thread nD τ).loc main_arg3)

/-- The input features after `p` rounds. -/
def feat : ℕ → TNodes
  | 0 => A0 m c
  | p + 1 => roundK (rowOf (A1 m c)) (colOf (A1 m c)) (invK (colOf (A1 m c))) (wtK (A2 m c)) (A3 m c) (feat p)

/-- A round depends only on the five arrays it is given. -/
theorem step_congr {g g' i i' x x' : Cert.MsgStep.Nodes.Idx → EReal} {w w' : Cert.MsgStep.Sq.Idx → EReal} {b b' : Cert.MsgStep.Feat.Idx → EReal}
    (hg : g = g') (hi : i = i') (hx : x = x') (hw : w = w') (hb : b = b') :
    Cert.MsgStep.step g i x w b = Cert.MsgStep.step g' i' x' w' b' := by
  subst hg hi hx hw hb; rfl

/-- The launch memory at an argument array. -/
theorem W0_arg0 : W0 m ρ c (Proc.devRef .tc main_arg0) = (A0 m c) := rfl
theorem W0_arg1 : W0 m ρ c (Proc.devRef .tc main_arg1) = (A1 m c) := rfl
theorem W0_arg2 : W0 m ρ c (Proc.devRef .tc main_arg2) = (A2 m c) := rfl
theorem W0_arg3 : W0 m ρ c (Proc.devRef .tc main_arg3) = (A3 m c) := rfl

/-! ## The first launch's entry -/

theorem e0_row : W3 m ρ c (Proc.devRef .tc main_v1) = rowOf (A1 m c) :=
  (keep02_main_v1 (W2 m ρ c)).trans ((keep01_main_v1 (W1 m ρ c)).trans ((s00_row (W0 m ρ c)).trans (congrArg rowOf (W0_arg1 m ρ c))))
theorem e0_col : W3 m ρ c (Proc.devRef .tc main_v3) = colOf (A1 m c) :=
  (keep02_main_v3 (W2 m ρ c)).trans ((keep01_main_v3 (W1 m ρ c)).trans ((s00_col (W0 m ρ c)).trans (congrArg colOf (W0_arg1 m ρ c))))
theorem e0_bias : W3 m ρ c (Proc.devRef .tc main_arg3) = (A3 m c) :=
  (keep02_main_arg3 (W2 m ρ c)).trans ((keep01_main_arg3 (W1 m ρ c)).trans ((keep00_main_arg3 (W0 m ρ c)).trans (W0_arg3 m ρ c)))
theorem e0_x : W3 m ρ c (Proc.devRef .tc main_arg0) = feat m c 0 :=
  (keep02_main_arg0 (W2 m ρ c)).trans ((keep01_main_arg0 (W1 m ρ c)).trans ((keep00_main_arg0 (W0 m ρ c)).trans (W0_arg0 m ρ c)))
theorem e0_wt : W3 m ρ c (Proc.devRef .tc main_v13) = wtK (A2 m c) :=
  (s02_wt (W2 m ρ c)).trans (congrArg wtK ((keep01_main_arg2 (W1 m ρ c)).trans ((keep00_main_arg2 (W0 m ρ c)).trans (W0_arg2 m ρ c))))
/-- The clipped in-degree at the second stretch's exit. -/
theorem e0_clip : W2 m ρ c (Proc.devRef .tc main_v8) = clipK (colOf (A1 m c)) := by
  refine (s01_clip (W1 m ρ c)).trans ?_
  rw [show (W1 m ρ c (Proc.devRef .tc main_cst_1) : (⟨S_, .f32⟩ : BufTy).Contents (Elt Ideal)) = constant (F := Ideal) S_ .f32 0x3F800000#32
        from s00_one (W0 m ρ c),
      show (W1 m ρ c (Proc.devRef .tc main_v7) : (⟨S100000, .f32⟩ : BufTy).Contents (Elt Ideal)) = _ from s00_deg (W0 m ρ c),
      W0_arg1 m ρ c]
  rfl
theorem e0_inv : W3 m ρ c (Proc.devRef .tc main_v12) = invK (colOf (A1 m c)) := by
  refine (s02_inv (W2 m ρ c)).trans ?_
  rw [e0_clip m ρ c]
  rfl
theorem e0_agg : W3 m ρ c (Proc.devRef .tc main_v23) = aggK (feat m c 0) (rowOf (A1 m c)) (colOf (A1 m c)) :=
  (agg0 (W2 m ρ c)).trans (congr (congr (congrArg aggK
    ((keep01_main_arg0 (W1 m ρ c)).trans ((keep00_main_arg0 (W0 m ρ c)).trans (W0_arg0 m ρ c))))
    ((keep01_main_v1 (W1 m ρ c)).trans ((s00_row (W0 m ρ c)).trans (congrArg rowOf (W0_arg1 m ρ c)))))
    ((keep01_main_v3 (W1 m ρ c)).trans ((s00_col (W0 m ρ c)).trans (congrArg colOf (W0_arg1 m ρ c)))))

/-! ## Launch 0: its exit, and launch 1's entry -/

theorem x0_row : W4 m ρ c (Proc.devRef .tc main_v1) = rowOf (A1 m c) :=
  (W4_of_ne m ρ c main_v1 (by decide)).trans (e0_row m ρ c)
theorem x0_col : W4 m ρ c (Proc.devRef .tc main_v3) = colOf (A1 m c) :=
  (W4_of_ne m ρ c main_v3 (by decide)).trans (e0_col m ρ c)
theorem x0_inv : W4 m ρ c (Proc.devRef .tc main_v12) = invK (colOf (A1 m c)) :=
  ((W4_arr m ρ c 1).trans (((dat0 (V3 m ρ) c).arrAt_in 1 rfl _).trans (A_eq0 (V3 m ρ) c 1))).trans (e0_inv m ρ c)
theorem x0_wt : W4 m ρ c (Proc.devRef .tc main_v13) = wtK (A2 m c) :=
  ((W4_arr m ρ c 3).trans (((dat0 (V3 m ρ) c).arrAt_in 3 rfl _).trans (A_eq0 (V3 m ρ) c 3))).trans (e0_wt m ρ c)
theorem x0_bias : W4 m ρ c (Proc.devRef .tc main_arg3) = (A3 m c) :=
  ((W4_arr m ρ c 4).trans (((dat0 (V3 m ρ) c).arrAt_in 4 rfl _).trans (A_eq0 (V3 m ρ) c 4))).trans (e0_bias m ρ c)
/-- The launch's output array is one round of the arrays it entered with. -/
theorem x0_out : W4 m ρ c (Proc.devRef .tc main_v24) = feat m c 1 :=
  (W4_arr m ρ c 5).trans ((region0 (V3 m ρ) c).trans
    (step_congr (e0_agg m ρ c) (e0_inv m ρ c) (e0_x m ρ c) (e0_wt m ρ c) (e0_bias m ρ c)))
theorem e1_row : W5 m ρ c (Proc.devRef .tc main_v1) = rowOf (A1 m c) := (keep1_main_v1 (W4 m ρ c)).trans (x0_row m ρ c)
theorem e1_col : W5 m ρ c (Proc.devRef .tc main_v3) = colOf (A1 m c) := (keep1_main_v3 (W4 m ρ c)).trans (x0_col m ρ c)
theorem e1_inv : W5 m ρ c (Proc.devRef .tc main_v12) = invK (colOf (A1 m c)) := (keep1_main_v12 (W4 m ρ c)).trans (x0_inv m ρ c)
theorem e1_wt : W5 m ρ c (Proc.devRef .tc main_v13) = wtK (A2 m c) := (keep1_main_v13 (W4 m ρ c)).trans (x0_wt m ρ c)
theorem e1_bias : W5 m ρ c (Proc.devRef .tc main_arg3) = (A3 m c) := (keep1_main_arg3 (W4 m ρ c)).trans (x0_bias m ρ c)
theorem e1_x : W5 m ρ c (Proc.devRef .tc main_v24) = feat m c 1 := (keep1_main_v24 (W4 m ρ c)).trans (x0_out m ρ c)
theorem e1_agg : W5 m ρ c (Proc.devRef .tc main_v34) = aggK (feat m c 1) (rowOf (A1 m c)) (colOf (A1 m c)) :=
  (agg1 (W4 m ρ c)).trans (congr (congr (congrArg aggK (x0_out m ρ c)) (x0_row m ρ c)) (x0_col m ρ c))

/-! ## Launch 1: its exit, and launch 2's entry -/

theorem x1_row : W6 m ρ c (Proc.devRef .tc main_v1) = rowOf (A1 m c) :=
  (W6_of_ne m ρ c main_v1 (by decide)).trans (e1_row m ρ c)
theorem x1_col : W6 m ρ c (Proc.devRef .tc main_v3) = colOf (A1 m c) :=
  (W6_of_ne m ρ c main_v3 (by decide)).trans (e1_col m ρ c)
theorem x1_inv : W6 m ρ c (Proc.devRef .tc main_v12) = invK (colOf (A1 m c)) :=
  ((W6_arr m ρ c 1).trans (((dat1 (V5 m ρ) c).arrAt_in 1 rfl _).trans (A_eq1 (V5 m ρ) c 1))).trans (e1_inv m ρ c)
theorem x1_wt : W6 m ρ c (Proc.devRef .tc main_v13) = wtK (A2 m c) :=
  ((W6_arr m ρ c 3).trans (((dat1 (V5 m ρ) c).arrAt_in 3 rfl _).trans (A_eq1 (V5 m ρ) c 3))).trans (e1_wt m ρ c)
theorem x1_bias : W6 m ρ c (Proc.devRef .tc main_arg3) = (A3 m c) :=
  ((W6_arr m ρ c 4).trans (((dat1 (V5 m ρ) c).arrAt_in 4 rfl _).trans (A_eq1 (V5 m ρ) c 4))).trans (e1_bias m ρ c)
/-- The launch's output array is one round of the arrays it entered with. -/
theorem x1_out : W6 m ρ c (Proc.devRef .tc main_v35) = feat m c 2 :=
  (W6_arr m ρ c 5).trans ((region1 (V5 m ρ) c).trans
    (step_congr (e1_agg m ρ c) (e1_inv m ρ c) (e1_x m ρ c) (e1_wt m ρ c) (e1_bias m ρ c)))
theorem e2_row : W7 m ρ c (Proc.devRef .tc main_v1) = rowOf (A1 m c) := (keep2_main_v1 (W6 m ρ c)).trans (x1_row m ρ c)
theorem e2_col : W7 m ρ c (Proc.devRef .tc main_v3) = colOf (A1 m c) := (keep2_main_v3 (W6 m ρ c)).trans (x1_col m ρ c)
theorem e2_inv : W7 m ρ c (Proc.devRef .tc main_v12) = invK (colOf (A1 m c)) := (keep2_main_v12 (W6 m ρ c)).trans (x1_inv m ρ c)
theorem e2_wt : W7 m ρ c (Proc.devRef .tc main_v13) = wtK (A2 m c) := (keep2_main_v13 (W6 m ρ c)).trans (x1_wt m ρ c)
theorem e2_bias : W7 m ρ c (Proc.devRef .tc main_arg3) = (A3 m c) := (keep2_main_arg3 (W6 m ρ c)).trans (x1_bias m ρ c)
theorem e2_x : W7 m ρ c (Proc.devRef .tc main_v35) = feat m c 2 := (keep2_main_v35 (W6 m ρ c)).trans (x1_out m ρ c)
theorem e2_agg : W7 m ρ c (Proc.devRef .tc main_v45) = aggK (feat m c 2) (rowOf (A1 m c)) (colOf (A1 m c)) :=
  (agg2 (W6 m ρ c)).trans (congr (congr (congrArg aggK (x1_out m ρ c)) (x1_row m ρ c)) (x1_col m ρ c))

/-! ## Launch 2: its exit, and launch 3's entry -/

theorem x2_row : W8 m ρ c (Proc.devRef .tc main_v1) = rowOf (A1 m c) :=
  (W8_of_ne m ρ c main_v1 (by decide)).trans (e2_row m ρ c)
theorem x2_col : W8 m ρ c (Proc.devRef .tc main_v3) = colOf (A1 m c) :=
  (W8_of_ne m ρ c main_v3 (by decide)).trans (e2_col m ρ c)
theorem x2_inv : W8 m ρ c (Proc.devRef .tc main_v12) = invK (colOf (A1 m c)) :=
  ((W8_arr m ρ c 1).trans (((dat2 (V7 m ρ) c).arrAt_in 1 rfl _).trans (A_eq2 (V7 m ρ) c 1))).trans (e2_inv m ρ c)
theorem x2_wt : W8 m ρ c (Proc.devRef .tc main_v13) = wtK (A2 m c) :=
  ((W8_arr m ρ c 3).trans (((dat2 (V7 m ρ) c).arrAt_in 3 rfl _).trans (A_eq2 (V7 m ρ) c 3))).trans (e2_wt m ρ c)
theorem x2_bias : W8 m ρ c (Proc.devRef .tc main_arg3) = (A3 m c) :=
  ((W8_arr m ρ c 4).trans (((dat2 (V7 m ρ) c).arrAt_in 4 rfl _).trans (A_eq2 (V7 m ρ) c 4))).trans (e2_bias m ρ c)
/-- The launch's output array is one round of the arrays it entered with. -/
theorem x2_out : W8 m ρ c (Proc.devRef .tc main_v46) = feat m c 3 :=
  (W8_arr m ρ c 5).trans ((region2 (V7 m ρ) c).trans
    (step_congr (e2_agg m ρ c) (e2_inv m ρ c) (e2_x m ρ c) (e2_wt m ρ c) (e2_bias m ρ c)))
theorem e3_row : W9 m ρ c (Proc.devRef .tc main_v1) = rowOf (A1 m c) := (keep3_main_v1 (W8 m ρ c)).trans (x2_row m ρ c)
theorem e3_col : W9 m ρ c (Proc.devRef .tc main_v3) = colOf (A1 m c) := (keep3_main_v3 (W8 m ρ c)).trans (x2_col m ρ c)
theorem e3_inv : W9 m ρ c (Proc.devRef .tc main_v12) = invK (colOf (A1 m c)) := (keep3_main_v12 (W8 m ρ c)).trans (x2_inv m ρ c)
theorem e3_wt : W9 m ρ c (Proc.devRef .tc main_v13) = wtK (A2 m c) := (keep3_main_v13 (W8 m ρ c)).trans (x2_wt m ρ c)
theorem e3_bias : W9 m ρ c (Proc.devRef .tc main_arg3) = (A3 m c) := (keep3_main_arg3 (W8 m ρ c)).trans (x2_bias m ρ c)
theorem e3_x : W9 m ρ c (Proc.devRef .tc main_v46) = feat m c 3 := (keep3_main_v46 (W8 m ρ c)).trans (x2_out m ρ c)
theorem e3_agg : W9 m ρ c (Proc.devRef .tc main_v56) = aggK (feat m c 3) (rowOf (A1 m c)) (colOf (A1 m c)) :=
  (agg3 (W8 m ρ c)).trans (congr (congr (congrArg aggK (x2_out m ρ c)) (x2_row m ρ c)) (x2_col m ρ c))

/-! ## Launch 3: its exit, and launch 4's entry -/

theorem x3_row : W10 m ρ c (Proc.devRef .tc main_v1) = rowOf (A1 m c) :=
  (W10_of_ne m ρ c main_v1 (by decide)).trans (e3_row m ρ c)
theorem x3_col : W10 m ρ c (Proc.devRef .tc main_v3) = colOf (A1 m c) :=
  (W10_of_ne m ρ c main_v3 (by decide)).trans (e3_col m ρ c)
theorem x3_inv : W10 m ρ c (Proc.devRef .tc main_v12) = invK (colOf (A1 m c)) :=
  ((W10_arr m ρ c 1).trans (((dat3 (V9 m ρ) c).arrAt_in 1 rfl _).trans (A_eq3 (V9 m ρ) c 1))).trans (e3_inv m ρ c)
theorem x3_wt : W10 m ρ c (Proc.devRef .tc main_v13) = wtK (A2 m c) :=
  ((W10_arr m ρ c 3).trans (((dat3 (V9 m ρ) c).arrAt_in 3 rfl _).trans (A_eq3 (V9 m ρ) c 3))).trans (e3_wt m ρ c)
theorem x3_bias : W10 m ρ c (Proc.devRef .tc main_arg3) = (A3 m c) :=
  ((W10_arr m ρ c 4).trans (((dat3 (V9 m ρ) c).arrAt_in 4 rfl _).trans (A_eq3 (V9 m ρ) c 4))).trans (e3_bias m ρ c)
/-- The launch's output array is one round of the arrays it entered with. -/
theorem x3_out : W10 m ρ c (Proc.devRef .tc main_v57) = feat m c 4 :=
  (W10_arr m ρ c 5).trans ((region3 (V9 m ρ) c).trans
    (step_congr (e3_agg m ρ c) (e3_inv m ρ c) (e3_x m ρ c) (e3_wt m ρ c) (e3_bias m ρ c)))
theorem e4_row : W11 m ρ c (Proc.devRef .tc main_v1) = rowOf (A1 m c) := (keep4_main_v1 (W10 m ρ c)).trans (x3_row m ρ c)
theorem e4_col : W11 m ρ c (Proc.devRef .tc main_v3) = colOf (A1 m c) := (keep4_main_v3 (W10 m ρ c)).trans (x3_col m ρ c)
theorem e4_inv : W11 m ρ c (Proc.devRef .tc main_v12) = invK (colOf (A1 m c)) := (keep4_main_v12 (W10 m ρ c)).trans (x3_inv m ρ c)
theorem e4_wt : W11 m ρ c (Proc.devRef .tc main_v13) = wtK (A2 m c) := (keep4_main_v13 (W10 m ρ c)).trans (x3_wt m ρ c)
theorem e4_bias : W11 m ρ c (Proc.devRef .tc main_arg3) = (A3 m c) := (keep4_main_arg3 (W10 m ρ c)).trans (x3_bias m ρ c)
theorem e4_x : W11 m ρ c (Proc.devRef .tc main_v57) = feat m c 4 := (keep4_main_v57 (W10 m ρ c)).trans (x3_out m ρ c)
theorem e4_agg : W11 m ρ c (Proc.devRef .tc main_v67) = aggK (feat m c 4) (rowOf (A1 m c)) (colOf (A1 m c)) :=
  (agg4 (W10 m ρ c)).trans (congr (congr (congrArg aggK (x3_out m ρ c)) (x3_row m ρ c)) (x3_col m ρ c))

/-! ## Launch 4: its exit, and launch 5's entry -/

theorem x4_row : W12 m ρ c (Proc.devRef .tc main_v1) = rowOf (A1 m c) :=
  (W12_of_ne m ρ c main_v1 (by decide)).trans (e4_row m ρ c)
theorem x4_col : W12 m ρ c (Proc.devRef .tc main_v3) = colOf (A1 m c) :=
  (W12_of_ne m ρ c main_v3 (by decide)).trans (e4_col m ρ c)
theorem x4_inv : W12 m ρ c (Proc.devRef .tc main_v12) = invK (colOf (A1 m c)) :=
  ((W12_arr m ρ c 1).trans (((dat4 (V11 m ρ) c).arrAt_in 1 rfl _).trans (A_eq4 (V11 m ρ) c 1))).trans (e4_inv m ρ c)
theorem x4_wt : W12 m ρ c (Proc.devRef .tc main_v13) = wtK (A2 m c) :=
  ((W12_arr m ρ c 3).trans (((dat4 (V11 m ρ) c).arrAt_in 3 rfl _).trans (A_eq4 (V11 m ρ) c 3))).trans (e4_wt m ρ c)
theorem x4_bias : W12 m ρ c (Proc.devRef .tc main_arg3) = (A3 m c) :=
  ((W12_arr m ρ c 4).trans (((dat4 (V11 m ρ) c).arrAt_in 4 rfl _).trans (A_eq4 (V11 m ρ) c 4))).trans (e4_bias m ρ c)
/-- The launch's output array is one round of the arrays it entered with. -/
theorem x4_out : W12 m ρ c (Proc.devRef .tc main_v68) = feat m c 5 :=
  (W12_arr m ρ c 5).trans ((region4 (V11 m ρ) c).trans
    (step_congr (e4_agg m ρ c) (e4_inv m ρ c) (e4_x m ρ c) (e4_wt m ρ c) (e4_bias m ρ c)))
theorem e5_row : W13 m ρ c (Proc.devRef .tc main_v1) = rowOf (A1 m c) := (keep5_main_v1 (W12 m ρ c)).trans (x4_row m ρ c)
theorem e5_col : W13 m ρ c (Proc.devRef .tc main_v3) = colOf (A1 m c) := (keep5_main_v3 (W12 m ρ c)).trans (x4_col m ρ c)
theorem e5_inv : W13 m ρ c (Proc.devRef .tc main_v12) = invK (colOf (A1 m c)) := (keep5_main_v12 (W12 m ρ c)).trans (x4_inv m ρ c)
theorem e5_wt : W13 m ρ c (Proc.devRef .tc main_v13) = wtK (A2 m c) := (keep5_main_v13 (W12 m ρ c)).trans (x4_wt m ρ c)
theorem e5_bias : W13 m ρ c (Proc.devRef .tc main_arg3) = (A3 m c) := (keep5_main_arg3 (W12 m ρ c)).trans (x4_bias m ρ c)
theorem e5_x : W13 m ρ c (Proc.devRef .tc main_v68) = feat m c 5 := (keep5_main_v68 (W12 m ρ c)).trans (x4_out m ρ c)
theorem e5_agg : W13 m ρ c (Proc.devRef .tc main_v78) = aggK (feat m c 5) (rowOf (A1 m c)) (colOf (A1 m c)) :=
  (agg5 (W12 m ρ c)).trans (congr (congr (congrArg aggK (x4_out m ρ c)) (x4_row m ρ c)) (x4_col m ρ c))

/-! ## Launch 5: its exit -/

theorem x5_row : W14 m ρ c (Proc.devRef .tc main_v1) = rowOf (A1 m c) :=
  (W14_of_ne m ρ c main_v1 (by decide)).trans (e5_row m ρ c)
theorem x5_col : W14 m ρ c (Proc.devRef .tc main_v3) = colOf (A1 m c) :=
  (W14_of_ne m ρ c main_v3 (by decide)).trans (e5_col m ρ c)
theorem x5_inv : W14 m ρ c (Proc.devRef .tc main_v12) = invK (colOf (A1 m c)) :=
  ((W14_arr m ρ c 1).trans (((dat5 (V13 m ρ) c).arrAt_in 1 rfl _).trans (A_eq5 (V13 m ρ) c 1))).trans (e5_inv m ρ c)
theorem x5_wt : W14 m ρ c (Proc.devRef .tc main_v13) = wtK (A2 m c) :=
  ((W14_arr m ρ c 3).trans (((dat5 (V13 m ρ) c).arrAt_in 3 rfl _).trans (A_eq5 (V13 m ρ) c 3))).trans (e5_wt m ρ c)
theorem x5_bias : W14 m ρ c (Proc.devRef .tc main_arg3) = (A3 m c) :=
  ((W14_arr m ρ c 4).trans (((dat5 (V13 m ρ) c).arrAt_in 4 rfl _).trans (A_eq5 (V13 m ρ) c 4))).trans (e5_bias m ρ c)
/-- The launch's output array is one round of the arrays it entered with. -/
theorem x5_out : W14 m ρ c (Proc.devRef .tc main_v79) = feat m c 6 :=
  (W14_arr m ρ c 5).trans ((region5 (V13 m ρ) c).trans
    (step_congr (e5_agg m ρ c) (e5_inv m ρ c) (e5_x m ρ c) (e5_wt m ρ c) (e5_bias m ρ c)))

/-- The program's result array holds the input features after six rounds. -/
theorem result_eq : W14 m ρ c (Proc.devRef .tc main_v79) = feat m c 6 := x5_out m ρ c

end Cert.KernelIdeal.Fold

end
-- ==== Proof.RefRound.lean ====
import proofs.«172677_j33947421507739_1_alg».proof.Proof.Gen.ReferenceIdeal.Read
import proofs.«172677_j33947421507739_1_alg».proof.Proof.Step

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## One round written with whole-array operations

A round of the reference is: divide the neighbour sum entrywise by the clipped degree spread over the features,
multiply by the transposed weight matrix, add the bias spread over the nodes, clamp at zero from below, add the
features it started from. Read at the entry (n, h) this is
  y[n,h] + max( (sum over k of (A[n,k] / d[n]) * Wt[k,h]) + b[h], 0 ). -/

/-- At the output entry (n, h) and the contraction position k the left factor of the matrix product is read at (n, k). -/
theorem lidx_ix2 (n : Fin 100000) (h k : Fin 128) : Read.lidx_main_v23 (ix2 n h) k = ix2 n k :=
  funext fun a => Fin.ext (by match a with | ⟨0, _⟩ => rfl | ⟨1, _⟩ => rfl)

/-- … and the right factor at (k, h). -/
theorem ridx_ix2 (n : Fin 100000) (h k : Fin 128) : Read.ridx_main_v23 (ix2 n h) k = ix2 k h :=
  funext fun a => Fin.ext (by match a with | ⟨0, _⟩ => rfl | ⟨1, _⟩ => rfl)

/-- The product of a 100000 x 128 array with a 128 x 128 matrix, contracting the features of the first with the rows
    of the second, read at an entry: the sum over the 128 contraction positions of the products of the two factors. -/
theorem dot_apply (l : FVec Ideal S100000x128 .f32) (r : FVec Ideal S128x128 .f32) (i : S100000x128.Idx) :
    Host.dotGeneral (F := Ideal) dot_S100000x128_S128x128_S100000x128_1_0_0_1_n_n none l r i
      = ∑ k : Fin 128, l (Read.lidx_main_v23 i k) * r (Read.ridx_main_v23 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = Read.lidx_main_v23 i k :=
    funext fun a => Fin.ext (by
      match a with
      | ⟨0, _⟩ => exact Read.lhs_main_v23_0 _ _
      | ⟨1, _⟩ => exact (Read.lhs_main_v23_1 _ _).trans hk)
  have er : dot_S100000x128_S128x128_S100000x128_1_0_0_1_n_n.rhsIdx i ((ValueIdx.contrEquiv1 dot_S100000x128_S128x128_S100000x128_1_0_0_1_n_n 128 rfl rfl).symm k) = Read.ridx_main_v23 i k :=
    funext fun a => Fin.ext (by
      match a with
      | ⟨0, _⟩ => exact (Read.rhs_main_v23_0 _ _).trans hk
      | ⟨1, _⟩ => exact Read.rhs_main_v23_1 _ _)
  rw [el, er]

/-- The round's operations applied to arbitrary arrays: `A` the neighbour sum, `D` an array that holds the divisor
    d[n] at every feature of node n, `Wt` the matrix, `Bc` an array that holds the bias b[h] at every node, `Z` an
    array of zeros, `y` the features the round starts from. The result is the whole-array round in its dividing form. -/
theorem round_generic (y A D : FVec Ideal S100000x128 .f32) (Wt : FVec Ideal S128x128 .f32) (Bc Z : FVec Ideal S100000x128 .f32)
    (d : FVec Ideal S100000 .f32) (b : FVec Ideal S128 .f32)
    (hD : ∀ (n : Fin 100000) (k : Fin 128), D (ix2 n k) = d (ix1 n))
    (hB : ∀ (n : Fin 100000) (h : Fin 128), Bc (ix2 n h) = b (ix1 h))
    (hZ : ∀ i, Z i = 0) :
    addf y (maximumf (addf (Host.dotGeneral (F := Ideal) dot_S100000x128_S128x128_S100000x128_1_0_0_1_n_n none (Host.divf A D) Wt) Bc) Z)
      = Cert.MsgStep.stepRef A d y Wt b := by
  funext i
  obtain ⟨n, h, rfl⟩ : ∃ (n : Fin 100000) (h : Fin 128), i = ix2 n h := ⟨i 0, i 1, eq_ix2 i⟩
  rw [Cert.MsgStep.stepRef_ix2]
  unfold Cert.MsgStep.stepRefAt
  show FloatOps.addf (y (ix2 n h)) (FloatOps.maximumf (FloatOps.addf
    (Host.dotGeneral (F := Ideal) dot_S100000x128_S128x128_S100000x128_1_0_0_1_n_n none (Host.divf A D) Wt (ix2 n h)) (Bc (ix2 n h))) (Z (ix2 n h))) = _
  rw [dot_apply, hB, hZ, Ideal.addf_def, Ideal.maximumf_def, Ideal.addf_def]
  refine congrArg (fun s => y (ix2 n h) + max (s + b (ix1 h)) 0) (Finset.sum_congr rfl fun k _ => ?_)
  rw [lidx_ix2, ridx_ix2]
  show FloatOps.hostDivf (A (ix2 n k)) (D (ix2 n k)) * Wt (ix2 k h) = _
  rw [hD, Ideal.hostDivf_def]

/-! ## The stages that every round recomputes

Each round writes afresh the row index (with a negative index moved up by the number of nodes), the array of zeros the
neighbour sum starts from, the column index, the clipped degree spread over the features, the transposed matrix, the
bias spread over the nodes and the zeros of the clamp. They are the same operations on the same arguments each time,
so the later copies are the first round's arrays. -/

theorem row2 (x1 : IVec S2x1600000 32) : Read.val_main_v34 (F := Ideal) x1 = Read.val_main_v15 (F := Ideal) x1 := by
  unfold Read.val_main_v34 Read.val_main_v33 Read.val_main_v30 Read.val_main_v29 Read.val_main_c_4 Read.val_main_v32 Read.val_main_v31 Read.val_main_c_5 Read.val_main_v15 Read.val_main_v14 Read.val_main_v11 Read.val_main_v10 Read.val_main_c Read.val_main_v13 Read.val_main_v12 Read.val_main_c_2
  rfl
theorem zer2 : Read.val_main_v36 (F := Ideal) = Read.val_main_v17 (F := Ideal) := by
  unfold Read.val_main_v36 Read.val_main_cst_6 Read.val_main_v17 Read.val_main_cst_3
  rfl
theorem col2 (x1 : IVec S2x1600000 32) : Read.val_main_v37 (F := Ideal) x1 = Read.val_main_v18 (F := Ideal) x1 := by
  unfold Read.val_main_v37 Read.val_main_v18
  rfl
theorem deg2 (x1 : IVec S2x1600000 32) : Read.val_main_v39 (F := Ideal) x1 = Read.val_main_v20 (F := Ideal) x1 := by
  unfold Read.val_main_v39 Read.val_main_v20
  rfl
theorem tr2 (x2 : FVec Ideal S128x128 .f32) : Read.val_main_v41 (F := Ideal) x2 = Read.val_main_v22 (F := Ideal) x2 := by
  unfold Read.val_main_v41 Read.val_main_v22
  rfl
theorem bias2 (x3 : FVec Ideal S128 .f32) : Read.val_main_v44 (F := Ideal) x3 = Read.val_main_v25 (F := Ideal) x3 := by
  unfold Read.val_main_v44 Read.val_main_v43 Read.val_main_v25 Read.val_main_v24
  rfl
theorem rz2 : Read.val_main_call2_v0 (F := Ideal) = Read.val_main_call1_v0 (F := Ideal) := by
  unfold Read.val_main_call2_v0 Read.val_main_call2_cst Read.val_main_call1_v0 Read.val_main_call1_cst
  rfl

theorem row3 (x1 : IVec S2x1600000 32) : Read.val_main_v53 (F := Ideal) x1 = Read.val_main_v15 (F := Ideal) x1 := by
  unfold Read.val_main_v53 Read.val_main_v52 Read.val_main_v49 Read.val_main_v48 Read.val_main_c_7 Read.val_main_v51 Read.val_main_v50 Read.val_main_c_8 Read.val_main_v15 Read.val_main_v14 Read.val_main_v11 Read.val_main_v10 Read.val_main_c Read.val_main_v13 Read.val_main_v12 Read.val_main_c_2
  rfl
theorem zer3 : Read.val_main_v55 (F := Ideal) = Read.val_main_v17 (F := Ideal) := by
  unfold Read.val_main_v55 Read.val_main_cst_9 Read.val_main_v17 Read.val_main_cst_3
  rfl
theorem col3 (x1 : IVec S2x1600000 32) : Read.val_main_v56 (F := Ideal) x1 = Read.val_main_v18 (F := Ideal) x1 := by
  unfold Read.val_main_v56 Read.val_main_v18
  rfl
theorem deg3 (x1 : IVec S2x1600000 32) : Read.val_main_v58 (F := Ideal) x1 = Read.val_main_v20 (F := Ideal) x1 := by
  unfold Read.val_main_v58 Read.val_main_v20
  rfl
theorem tr3 (x2 : FVec Ideal S128x128 .f32) : Read.val_main_v60 (F := Ideal) x2 = Read.val_main_v22 (F := Ideal) x2 := by
  unfold Read.val_main_v60 Read.val_main_v22
  rfl
theorem bias3 (x3 : FVec Ideal S128 .f32) : Read.val_main_v63 (F := Ideal) x3 = Read.val_main_v25 (F := Ideal) x3 := by
  unfold Read.val_main_v63 Read.val_main_v62 Read.val_main_v25 Read.val_main_v24
  rfl
theorem rz3 : Read.val_main_call3_v0 (F := Ideal) = Read.val_main_call1_v0 (F := Ideal) := by
  unfold Read.val_main_call3_v0 Read.val_main_call3_cst Read.val_main_call1_v0 Read.val_main_call1_cst
  rfl

theorem row4 (x1 : IVec S2x1600000 32) : Read.val_main_v72 (F := Ideal) x1 = Read.val_main_v15 (F := Ideal) x1 := by
  unfold Read.val_main_v72 Read.val_main_v71 Read.val_main_v68 Read.val_main_v67 Read.val_main_c_10 Read.val_main_v70 Read.val_main_v69 Read.val_main_c_11 Read.val_main_v15 Read.val_main_v14 Read.val_main_v11 Read.val_main_v10 Read.val_main_c Read.val_main_v13 Read.val_main_v12 Read.val_main_c_2
  rfl
theorem zer4 : Read.val_main_v74 (F := Ideal) = Read.val_main_v17 (F := Ideal) := by
  unfold Read.val_main_v74 Read.val_main_cst_12 Read.val_main_v17 Read.val_main_cst_3
  rfl
theorem col4 (x1 : IVec S2x1600000 32) : Read.val_main_v75 (F := Ideal) x1 = Read.val_main_v18 (F := Ideal) x1 := by
  unfold Read.val_main_v75 Read.val_main_v18
  rfl
theorem deg4 (x1 : IVec S2x1600000 32) : Read.val_main_v77 (F := Ideal) x1 = Read.val_main_v20 (F := Ideal) x1 := by
  unfold Read.val_main_v77 Read.val_main_v20
  rfl
theorem tr4 (x2 : FVec Ideal S128x128 .f32) : Read.val_main_v79 (F := Ideal) x2 = Read.val_main_v22 (F := Ideal) x2 := by
  unfold Read.val_main_v79 Read.val_main_v22
  rfl
theorem bias4 (x3 : FVec Ideal S128 .f32) : Read.val_main_v82 (F := Ideal) x3 = Read.val_main_v25 (F := Ideal) x3 := by
  unfold Read.val_main_v82 Read.val_main_v81 Read.val_main_v25 Read.val_main_v24
  rfl
theorem rz4 : Read.val_main_call4_v0 (F := Ideal) = Read.val_main_call1_v0 (F := Ideal) := by
  unfold Read.val_main_call4_v0 Read.val_main_call4_cst Read.val_main_call1_v0 Read.val_main_call1_cst
  rfl

theorem row5 (x1 : IVec S2x1600000 32) : Read.val_main_v91 (F := Ideal) x1 = Read.val_main_v15 (F := Ideal) x1 := by
  unfold Read.val_main_v91 Read.val_main_v90 Read.val_main_v87 Read.val_main_v86 Read.val_main_c_13 Read.val_main_v89 Read.val_main_v88 Read.val_main_c_14 Read.val_main_v15 Read.val_main_v14 Read.val_main_v11 Read.val_main_v10 Read.val_main_c Read.val_main_v13 Read.val_main_v12 Read.val_main_c_2
  rfl
theorem zer5 : Read.val_main_v93 (F := Ideal) = Read.val_main_v17 (F := Ideal) := by
  unfold Read.val_main_v93 Read.val_main_cst_15 Read.val_main_v17 Read.val_main_cst_3
  rfl
theorem col5 (x1 : IVec S2x1600000 32) : Read.val_main_v94 (F := Ideal) x1 = Read.val_main_v18 (F := Ideal) x1 := by
  unfold Read.val_main_v94 Read.val_main_v18
  rfl
theorem deg5 (x1 : IVec S2x1600000 32) : Read.val_main_v96 (F := Ideal) x1 = Read.val_main_v20 (F := Ideal) x1 := by
  unfold Read.val_main_v96 Read.val_main_v20
  rfl
theorem tr5 (x2 : FVec Ideal S128x128 .f32) : Read.val_main_v98 (F := Ideal) x2 = Read.val_main_v22 (F := Ideal) x2 := by
  unfold Read.val_main_v98 Read.val_main_v22
  rfl
theorem bias5 (x3 : FVec Ideal S128 .f32) : Read.val_main_v101 (F := Ideal) x3 = Read.val_main_v25 (F := Ideal) x3 := by
  unfold Read.val_main_v101 Read.val_main_v100 Read.val_main_v25 Read.val_main_v24
  rfl
theorem rz5 : Read.val_main_call5_v0 (F := Ideal) = Read.val_main_call1_v0 (F := Ideal) := by
  unfold Read.val_main_call5_v0 Read.val_main_call5_cst Read.val_main_call1_v0 Read.val_main_call1_cst
  rfl

theorem row6 (x1 : IVec S2x1600000 32) : Read.val_main_v110 (F := Ideal) x1 = Read.val_main_v15 (F := Ideal) x1 := by
  unfold Read.val_main_v110 Read.val_main_v109 Read.val_main_v106 Read.val_main_v105 Read.val_main_c_16 Read.val_main_v108 Read.val_main_v107 Read.val_main_c_17 Read.val_main_v15 Read.val_main_v14 Read.val_main_v11 Read.val_main_v10 Read.val_main_c Read.val_main_v13 Read.val_main_v12 Read.val_main_c_2
  rfl
theorem zer6 : Read.val_main_v112 (F := Ideal) = Read.val_main_v17 (F := Ideal) := by
  unfold Read.val_main_v112 Read.val_main_cst_18 Read.val_main_v17 Read.val_main_cst_3
  rfl
theorem col6 (x1 : IVec S2x1600000 32) : Read.val_main_v113 (F := Ideal) x1 = Read.val_main_v18 (F := Ideal) x1 := by
  unfold Read.val_main_v113 Read.val_main_v18
  rfl
theorem deg6 (x1 : IVec S2x1600000 32) : Read.val_main_v115 (F := Ideal) x1 = Read.val_main_v20 (F := Ideal) x1 := by
  unfold Read.val_main_v115 Read.val_main_v20
  rfl
theorem tr6 (x2 : FVec Ideal S128x128 .f32) : Read.val_main_v117 (F := Ideal) x2 = Read.val_main_v22 (F := Ideal) x2 := by
  unfold Read.val_main_v117 Read.val_main_v22
  rfl
theorem bias6 (x3 : FVec Ideal S128 .f32) : Read.val_main_v120 (F := Ideal) x3 = Read.val_main_v25 (F := Ideal) x3 := by
  unfold Read.val_main_v120 Read.val_main_v119 Read.val_main_v25 Read.val_main_v24
  rfl
theorem rz6 : Read.val_main_call6_v0 (F := Ideal) = Read.val_main_call1_v0 (F := Ideal) := by
  unfold Read.val_main_call6_v0 Read.val_main_call6_cst Read.val_main_call1_v0 Read.val_main_call1_cst
  rfl

/-! ## The first round's spread arrays read at an entry -/

/-- The clipped degree spread over the features holds, at every feature of node n, the clipped degree of n. -/
theorem deg_ix2 (x1 : IVec S2x1600000 32) (n : Fin 100000) (k : Fin 128) :
    Read.val_main_v20 (F := Ideal) x1 (ix2 n k) = Read.val_main_v8 (F := Ideal) x1 (ix1 n) := by
  rw [Read.val_main_v20_apply, Read.val_main_v9_apply]
  exact congrArg (Read.val_main_v8 (F := Ideal) x1) (funext fun a => Fin.ext (by match a with | ⟨0, _⟩ => rfl))

/-- The bias spread over the nodes holds, at every node, the bias of feature h. -/
theorem bias_ix2 (x3 : FVec Ideal S128 .f32) (n : Fin 100000) (h : Fin 128) : Read.val_main_v25 (F := Ideal) x3 (ix2 n h) = x3 (ix1 h) := by
  rw [Read.val_main_v25_apply, Read.val_main_v24_apply]
  exact congrArg x3 (funext fun a => Fin.ext (by match a with | ⟨0, _⟩ => rfl))

/-- The array the clamp compares with is zero everywhere. -/
theorem zero_apply (i : S100000x128.Idx) : Read.val_main_call1_v0 (F := Ideal) i = 0 := by
  rw [Read.val_main_call1_v0_apply, Read.val_main_call1_cst_apply]
  exact Ideal.ofBits_zero_f32

/-! ## The round as one function of the features -/

/-- The neighbour sum of the current features `y`: gather the source rows, scatter-add them into the destinations. -/
def agg (y : FVec Ideal S100000x128 .f32) (x1 : IVec S2x1600000 32) : FVec Ideal S100000x128 .f32 :=
  Host.scatterAdd scatter_S100000x128_S1600000x1_S1600000x128_1_0_0_1 (Read.val_main_v17 (F := Ideal)) (Read.val_main_v18 (F := Ideal) x1)
    (Host.gather gather_S100000x128_S1600000x1_S1600000x128_1_0_n_n_0_1_1128 y (Read.val_main_v15 (F := Ideal) x1))

/-- One round of the reference, as the whole-array function. -/
def round (x1 : IVec S2x1600000 32) (x2 : FVec Ideal S128x128 .f32) (x3 : FVec Ideal S128 .f32) (y : FVec Ideal S100000x128 .f32) : FVec Ideal S100000x128 .f32 :=
  Cert.MsgStep.stepRef (agg y x1) (Read.val_main_v8 (F := Ideal) x1) y (Read.val_main_v22 (F := Ideal) x2) x3

/-- The round's operations, on the first round's spread arrays and any features `y`, are the round. -/
theorem round_ops (x1 : IVec S2x1600000 32) (x2 : FVec Ideal S128x128 .f32) (x3 : FVec Ideal S128 .f32) (y : FVec Ideal S100000x128 .f32) :
    addf y (maximumf (addf (Host.dotGeneral (F := Ideal) (φ₁ := .f32) (φ₂ := .f32) dot_S100000x128_S128x128_S100000x128_1_0_0_1_n_n none
      (Host.divf (agg y x1) (Read.val_main_v20 (F := Ideal) x1)) (Read.val_main_v22 (F := Ideal) x2)) (Read.val_main_v25 (F := Ideal) x3)) (Read.val_main_call1_v0 (F := Ideal)))
      = round x1 x2 x3 y :=
  round_generic y (agg y x1) (Read.val_main_v20 (F := Ideal) x1) (Read.val_main_v22 (F := Ideal) x2) (Read.val_main_v25 (F := Ideal) x3) (Read.val_main_call1_v0 (F := Ideal))
    (Read.val_main_v8 (F := Ideal) x1) x3 (deg_ix2 x1) (bias_ix2 x3) zero_apply

/-! ## The six rounds of the printed program -/

/-- The neighbour sum the round 1 stage computes is the neighbour sum of the features it starts from. -/
theorem agg1 (x0 : FVec Ideal S100000x128 .f32) (x1 : IVec S2x1600000 32) (x2 : FVec Ideal S128x128 .f32) (x3 : FVec Ideal S128 .f32) : Read.val_main_v19 (F := Ideal) x0 x1 = agg x0 x1 := by
  unfold Read.val_main_v19 Read.val_main_v16 agg
  rfl

theorem round1 (x0 : FVec Ideal S100000x128 .f32) (x1 : IVec S2x1600000 32) (x2 : FVec Ideal S128x128 .f32) (x3 : FVec Ideal S128 .f32) : Read.val_main_v28 (F := Ideal) x0 x1 x2 x3 = round x1 x2 x3 x0 := by
  unfold Read.val_main_v28 Read.val_main_v27 Read.val_main_v26 Read.val_main_v23 Read.val_main_v21
  rw [agg1 x0 x1 x2 x3]
  exact round_ops x1 x2 x3 x0

/-- The neighbour sum the round 2 stage computes is the neighbour sum of the features it starts from. -/
theorem agg2 (x0 : FVec Ideal S100000x128 .f32) (x1 : IVec S2x1600000 32) (x2 : FVec Ideal S128x128 .f32) (x3 : FVec Ideal S128 .f32) : Read.val_main_v38 (F := Ideal) x0 x1 x2 x3 = agg (Read.val_main_v28 (F := Ideal) x0 x1 x2 x3) x1 := by
  unfold Read.val_main_v38 Read.val_main_v35 agg
  rw [row2, zer2, col2]

theorem round2 (x0 : FVec Ideal S100000x128 .f32) (x1 : IVec S2x1600000 32) (x2 : FVec Ideal S128x128 .f32) (x3 : FVec Ideal S128 .f32) : Read.val_main_v47 (F := Ideal) x0 x1 x2 x3 = round x1 x2 x3 (Read.val_main_v28 (F := Ideal) x0 x1 x2 x3) := by
  unfold Read.val_main_v47 Read.val_main_v46 Read.val_main_v45 Read.val_main_v42 Read.val_main_v40
  rw [agg2 x0 x1 x2 x3, deg2, tr2, bias2, rz2]
  exact round_ops x1 x2 x3 (Read.val_main_v28 (F := Ideal) x0 x1 x2 x3)

/-- The neighbour sum the round 3 stage computes is the neighbour sum of the features it starts from. -/
theorem agg3 (x0 : FVec Ideal S100000x128 .f32) (x1 : IVec S2x1600000 32) (x2 : FVec Ideal S128x128 .f32) (x3 : FVec Ideal S128 .f32) : Read.val_main_v57 (F := Ideal) x0 x1 x2 x3 = agg (Read.val_main_v47 (F := Ideal) x0 x1 x2 x3) x1 := by
  unfold Read.val_main_v57 Read.val_main_v54 agg
  rw [row3, zer3, col3]

theorem round3 (x0 : FVec Ideal S100000x128 .f32) (x1 : IVec S2x1600000 32) (x2 : FVec Ideal S128x128 .f32) (x3 : FVec Ideal S128 .f32) : Read.val_main_v66 (F := Ideal) x0 x1 x2 x3 = round x1 x2 x3 (Read.val_main_v47 (F := Ideal) x0 x1 x2 x3) := by
  unfold Read.val_main_v66 Read.val_main_v65 Read.val_main_v64 Read.val_main_v61 Read.val_main_v59
  rw [agg3 x0 x1 x2 x3, deg3, tr3, bias3, rz3]
  exact round_ops x1 x2 x3 (Read.val_main_v47 (F := Ideal) x0 x1 x2 x3)

/-- The neighbour sum the round 4 stage computes is the neighbour sum of the features it starts from. -/
theorem agg4 (x0 : FVec Ideal S100000x128 .f32) (x1 : IVec S2x1600000 32) (x2 : FVec Ideal S128x128 .f32) (x3 : FVec Ideal S128 .f32) : Read.val_main_v76 (F := Ideal) x0 x1 x2 x3 = agg (Read.val_main_v66 (F := Ideal) x0 x1 x2 x3) x1 := by
  unfold Read.val_main_v76 Read.val_main_v73 agg
  rw [row4, zer4, col4]

theorem round4 (x0 : FVec Ideal S100000x128 .f32) (x1 : IVec S2x1600000 32) (x2 : FVec Ideal S128x128 .f32) (x3 : FVec Ideal S128 .f32) : Read.val_main_v85 (F := Ideal) x0 x1 x2 x3 = round x1 x2 x3 (Read.val_main_v66 (F := Ideal) x0 x1 x2 x3) := by
  unfold Read.val_main_v85 Read.val_main_v84 Read.val_main_v83 Read.val_main_v80 Read.val_main_v78
  rw [agg4 x0 x1 x2 x3, deg4, tr4, bias4, rz4]
  exact round_ops x1 x2 x3 (Read.val_main_v66 (F := Ideal) x0 x1 x2 x3)

/-- The neighbour sum the round 5 stage computes is the neighbour sum of the features it starts from. -/
theorem agg5 (x0 : FVec Ideal S100000x128 .f32) (x1 : IVec S2x1600000 32) (x2 : FVec Ideal S128x128 .f32) (x3 : FVec Ideal S128 .f32) : Read.val_main_v95 (F := Ideal) x0 x1 x2 x3 = agg (Read.val_main_v85 (F := Ideal) x0 x1 x2 x3) x1 := by
  unfold Read.val_main_v95 Read.val_main_v92 agg
  rw [row5, zer5, col5]

theorem round5 (x0 : FVec Ideal S100000x128 .f32) (x1 : IVec S2x1600000 32) (x2 : FVec Ideal S128x128 .f32) (x3 : FVec Ideal S128 .f32) : Read.val_main_v104 (F := Ideal) x0 x1 x2 x3 = round x1 x2 x3 (Read.val_main_v85 (F := Ideal) x0 x1 x2 x3) := by
  unfold Read.val_main_v104 Read.val_main_v103 Read.val_main_v102 Read.val_main_v99 Read.val_main_v97
  rw [agg5 x0 x1 x2 x3, deg5, tr5, bias5, rz5]
  exact round_ops x1 x2 x3 (Read.val_main_v85 (F := Ideal) x0 x1 x2 x3)

/-- The neighbour sum the round 6 stage computes is the neighbour sum of the features it starts from. -/
theorem agg6 (x0 : FVec Ideal S100000x128 .f32) (x1 : IVec S2x1600000 32) (x2 : FVec Ideal S128x128 .f32) (x3 : FVec Ideal S128 .f32) : Read.val_main_v114 (F := Ideal) x0 x1 x2 x3 = agg (Read.val_main_v104 (F := Ideal) x0 x1 x2 x3) x1 := by
  unfold Read.val_main_v114 Read.val_main_v111 agg
  rw [row6, zer6, col6]

theorem round6 (x0 : FVec Ideal S100000x128 .f32) (x1 : IVec S2x1600000 32) (x2 : FVec Ideal S128x128 .f32) (x3 : FVec Ideal S128 .f32) : Read.val_main_v123 (F := Ideal) x0 x1 x2 x3 = round x1 x2 x3 (Read.val_main_v104 (F := Ideal) x0 x1 x2 x3) := by
  unfold Read.val_main_v123 Read.val_main_v122 Read.val_main_v121 Read.val_main_v118 Read.val_main_v116
  rw [agg6 x0 x1 x2 x3, deg6, tr6, bias6, rz6]
  exact round_ops x1 x2 x3 (Read.val_main_v104 (F := Ideal) x0 x1 x2 x3)

/-- The reference's value: six rounds from the input features. -/
theorem ref_value (x0 : FVec Ideal S100000x128 .f32) (x1 : IVec S2x1600000 32) (x2 : FVec Ideal S128x128 .f32) (x3 : FVec Ideal S128 .f32) :
    Read.val_main_v123 (F := Ideal) x0 x1 x2 x3
      = round x1 x2 x3 (round x1 x2 x3 (round x1 x2 x3 (round x1 x2 x3 (round x1 x2 x3 (round x1 x2 x3 x0))))) := by
  rw [round6, round5, round4, round3, round2, round1]

/-- The divisor of a round, the in-degree clipped from below at one, is never zero. -/
theorem clip_ne (x1 : IVec S2x1600000 32) (n : S100000.Idx) : Read.val_main_v8 (F := Ideal) x1 n ≠ 0 := by
  rw [Read.val_main_v8_apply, Read.val_main_call0_v1_apply, Read.val_main_call0_v0_apply, Read.val_main_cst_1_apply,
    Ideal.maximumf_def]
  exact Cert.MsgStep.clip_ne_zero _

/-- One round in the multiplying form: the neighbour sum times the reciprocal of the clipped degree. -/
def roundStep (x1 : IVec S2x1600000 32) (x2 : FVec Ideal S128x128 .f32) (x3 : FVec Ideal S128 .f32) (y : FVec Ideal S100000x128 .f32) : FVec Ideal S100000x128 .f32 :=
  Cert.MsgStep.step (agg y x1) (Cert.MsgStep.invOf 1 (Read.val_main_v8 (F := Ideal) x1)) y (Read.val_main_v22 (F := Ideal) x2) x3

theorem roundStep_def (x1 : IVec S2x1600000 32) (x2 : FVec Ideal S128x128 .f32) (x3 : FVec Ideal S128 .f32) (y : FVec Ideal S100000x128 .f32) :
    roundStep x1 x2 x3 y
      = Cert.MsgStep.step (agg y x1) (Cert.MsgStep.invOf 1 (Read.val_main_v8 (F := Ideal) x1)) y (Read.val_main_v22 (F := Ideal) x2) x3 := rfl

/-- Dividing by the clipped degree is multiplying by its reciprocal, since the clipped degree is not zero. -/
theorem round_eq_roundStep (x1 : IVec S2x1600000 32) (x2 : FVec Ideal S128x128 .f32) (x3 : FVec Ideal S128 .f32) (y : FVec Ideal S100000x128 .f32) : round x1 x2 x3 y = roundStep x1 x2 x3 y :=
  Cert.MsgStep.stepRef_eq_step (agg y x1) (Read.val_main_v8 (F := Ideal) x1) y (Read.val_main_v22 (F := Ideal) x2) x3 (clip_ne x1)

/-- The reference's value with every round in the multiplying form. -/
theorem ref_value_step (x0 : FVec Ideal S100000x128 .f32) (x1 : IVec S2x1600000 32) (x2 : FVec Ideal S128x128 .f32) (x3 : FVec Ideal S128 .f32) :
    Read.val_main_v123 (F := Ideal) x0 x1 x2 x3
      = roundStep x1 x2 x3 (roundStep x1 x2 x3 (roundStep x1 x2 x3 (roundStep x1 x2 x3 (roundStep x1 x2 x3 (roundStep x1 x2 x3 x0))))) := by
  rw [ref_value]
  simp only [round_eq_roundStep]

end Cert.ReferenceIdeal.RefValue

end
-- ==== Proof.Bridge.lean ====
/-
  The two programs run the same operations on the edge list and the features before and between their rounds: the
  source and destination rows of the edges, the neighbour sum, the clipped in-degree, the transposed weights. Each
  program names its shapes, its gather and scatter descriptions and their side conditions separately; the names
  denote the same objects, so the two families of functions are equal. The one place where the two differ in form is
  the degree normalisation: one program spreads the quotient 1.0 / (clipped degree) over the features, the other is
  stated with the array whose entry (n, k) is 1 / (clipped degree of n); entry by entry they are the same number.
-/
import proofs.«172677_j33947421507739_1_alg».proof.Proof.KernelHost
import proofs.«172677_j33947421507739_1_alg».proof.Proof.RefRound

noncomputable section

namespace Cert.Bridge

open Idealize.ShloMosaic Idealize.ShloMosaic.ValueIdx
open Cert.ReferenceIdeal Cert.KernelIdeal.HostFns

/-! ## The descriptions of the gather and of the two scatters -/

/-- Both programs gather whole rows of a 100000 x 128 array, one row per edge. -/
theorem gather_rec : Cert.KernelIdeal.gather_S100000x128_S1600000x1_S1600000x128_1_0_n_n_0_1_1128 = Cert.ReferenceIdeal.gather_S100000x128_S1600000x1_S1600000x128_1_0_n_n_0_1_1128 := rfl

/-- Both programs add 128-wide update rows into the rows the indices name. -/
theorem scatter_rows_rec : Cert.KernelIdeal.scatter_S100000x128_S1600000x1_S1600000x128_1_0_0_1 = Cert.ReferenceIdeal.scatter_S100000x128_S1600000x1_S1600000x128_1_0_0_1 := rfl

/-- Both programs add one number per edge into the entry the index names. -/
theorem scatter_deg_rec : Cert.KernelIdeal.scatter_S100000_S1600000x1_S1600000_n_0_0_1 = Cert.ReferenceIdeal.scatter_S100000_S1600000x1_S1600000_n_0_0_1 := rfl

/-! ## The rows of the edge list -/

/-- The sources of the edges: row 0 of the edge list, as a vector. -/
theorem row_eq (x1 : IVec S2x1600000 32) : rowOf x1 = Read.val_main_v1 (F := Ideal) x1 := by
  unfold rowOf Read.val_main_v1 Read.val_main_v0
  rfl

/-- The destinations of the edges: row 1 of the edge list, as a vector. -/
theorem col_eq (x1 : IVec S2x1600000 32) : colOf x1 = Read.val_main_v3 (F := Ideal) x1 := by
  unfold colOf Read.val_main_v3 Read.val_main_v2
  rfl

/-! ## The neighbour sum, the weights, the clipped degree -/

theorem agg_eq (y : FVec Ideal S100000x128 .f32) (x1 : IVec S2x1600000 32) : aggK y (rowOf x1) (colOf x1) = RefValue.agg y x1 := by
  unfold aggK RefValue.agg Read.val_main_v17 Read.val_main_cst_3 Read.val_main_v18 Read.val_main_v15 Read.val_main_v14
    Read.val_main_v11 Read.val_main_v10 Read.val_main_c Read.val_main_v13 Read.val_main_v12 Read.val_main_c_2
  rw [row_eq, col_eq, gather_rec, scatter_rows_rec]

theorem wt_eq (x2 : FVec Ideal S128x128 .f32) : wtK x2 = Read.val_main_v22 (F := Ideal) x2 := by
  unfold wtK Read.val_main_v22
  rfl

theorem clip_eq (x1 : IVec S2x1600000 32) : clipK (colOf x1) = Read.val_main_v8 (F := Ideal) x1 := by
  unfold clipK Read.val_main_v8 Read.val_main_call0_v1 Read.val_main_call0_v0 Read.val_main_cst_1 Read.val_main_v7
    Read.val_main_v5 Read.val_main_cst_0 Read.val_main_v6 Read.val_main_v4 Read.val_main_cst
  rw [col_eq, scatter_deg_rec]

/-! ## The reciprocal of the clipped degree -/

/-- A column with one entry per node, spread over the 128 features, holds at (n, k) the entry of node n. -/
theorem spread_cols (h1 : S100000x1.BroadcastsInDim S100000x128 (![0, 1] : Fin 2 → Fin S100000x128.rank))
    (v : FVec Ideal S100000x1 .f32) (n : Fin 100000) (k : Fin 128) :
    broadcastInDim S100000x128 ![0, 1] h1 v (ix2 n k) = v (ix2 n ⟨0, Nat.one_pos⟩) :=
  broadcastInDim_apply _ h1 v (ix2 n k) (ix2 n ⟨0, Nat.one_pos⟩) (fun a => match a with
    | ⟨0, _⟩ => by show n.val = if (100000 : Nat) = 1 then 0 else n.val; rw [if_neg (by decide)]
    | ⟨1, _⟩ => by show 0 = if (1 : Nat) = 1 then 0 else k.val; rw [if_pos rfl])

/-- A vector with one entry per node, made a column, holds at (n, 0) the entry of node n. -/
theorem spread_col (h0 : S100000.BroadcastsInDim S100000x1 (![0] : Fin 1 → Fin S100000x1.rank))
    (u : FVec Ideal S100000 .f32) (n : Fin 100000) :
    broadcastInDim S100000x1 ![0] h0 u (ix2 n ⟨0, Nat.one_pos⟩) = u (ix1 n) := by
  refine broadcastInDim_apply _ h0 u (ix2 n ⟨0, Nat.one_pos⟩) (ix1 n) (fun a => ?_)
  match a with
  | ⟨0, _⟩ =>
    show n.val = if (100000 : Nat) = 1 then 0 else n.val
    rw [if_neg (by decide)]

/-- A vector with one entry per node, spread first to a column and then over the 128 features, holds at (n, k) the
    entry of node n. -/
theorem spread_ix2 (h1 : S100000x1.BroadcastsInDim S100000x128 (![0, 1] : Fin 2 → Fin S100000x128.rank))
    (h0 : S100000.BroadcastsInDim S100000x1 (![0] : Fin 1 → Fin S100000x1.rank)) (u : FVec Ideal S100000 .f32)
    (n : Fin 100000) (k : Fin 128) :
    broadcastInDim S100000x128 ![0, 1] h1 (broadcastInDim S100000x1 ![0] h0 u) (ix2 n k) = u (ix1 n) :=
  (spread_cols h1 _ n k).trans (spread_col h0 u n)

/-- Entrywise division read at an entry. -/
theorem hostDiv_apply {s : Shape} (a b : FVec Ideal s .f32) (i : s.Idx) : Host.divf a b i = Ideal.div (a i) (b i) := rfl

/-- A single number spread over an array is that number at every entry. -/
theorem scalar_spread {T : Shape} (h : S_.BroadcastsInDim T (![] : Fin 0 → Fin T.rank)) (x : S_.Idx → EReal) (j : T.Idx) :
    broadcastInDim T ![] h x j = x ix0 := by
  unfold broadcastInDim
  exact congrArg x (funext fun a => a.elim0)

/-- Entry (n, k) of the spread reciprocal is 1 / (clipped degree of n): the quotient 1.0 / clip is taken node by node
    and then copied to every feature, and the literal 1.0 is the number one. -/
theorem inv_eq (x1 : IVec S2x1600000 32) : invK (colOf x1) = Cert.MsgStep.invOf 1 (Read.val_main_v8 (F := Ideal) x1) := by
  funext i
  obtain ⟨n, k, rfl⟩ : ∃ (n : Fin 100000) (k : Fin 128), i = ix2 n k := ⟨i 0, i 1, eq_ix2 i⟩
  rw [Cert.MsgStep.invOf_ix2, ← clip_eq x1]
  unfold invK
  refine (spread_ix2 _ _ _ n k).trans ?_
  rw [hostDiv_apply, scalar_spread, ValueIdx.constant_apply, Cert.MsgStep.one_f32]

/-! ## One round -/

theorem round_eq (x1 : IVec S2x1600000 32) (x2 : FVec Ideal S128x128 .f32) (x3 : FVec Ideal S128 .f32) (y : FVec Ideal S100000x128 .f32) :
    roundK (rowOf x1) (colOf x1) (invK (colOf x1)) (wtK x2) x3 y = RefValue.roundStep x1 x2 x3 y := by
  unfold roundK
  rw [RefValue.roundStep_def, agg_eq, inv_eq, wt_eq]

/-- The same, as an equality of functions of the features. -/
theorem roundFn_eq (x1 : IVec S2x1600000 32) (x2 : FVec Ideal S128x128 .f32) (x3 : FVec Ideal S128 .f32) :
    roundK (rowOf x1) (colOf x1) (invK (colOf x1)) (wtK x2) x3 = RefValue.roundStep x1 x2 x3 :=
  funext (round_eq x1 x2 x3)

end Cert.Bridge

end
-- ==== Proof.lean ====
/-
  Six rounds of degree-normalised message passing on a graph of 100000 nodes with 128 features per node: a
  block-wise kernel launched six times among host gathers and scatter-adds, against the plain array program.

  One round takes the node features x to x + max((A(x) * r) · Wᵀ + b, 0) in the kernel program and to
  x + max((A(x) / d) · Wᵀ + b, 0) in the reference, where A(x) is the neighbour sum (the rows of x at the edges'
  sources added into the edges' destinations), d the in-degree clipped from below at 1, and r = 1 / d spread over
  the features. The two programs compute A, d, Wᵀ by the same host operations on the same arguments. On the
  extended reals a / d is a * d⁻¹ and 1 / d is d⁻¹ whenever d is not zero, and max(1, deg) is never zero, so a
  round of one program is a round of the other on every input, the infinities included: no finiteness of the
  inputs is used. The kernel computes a round block by block — 25 blocks of 4000 rows tile the array, the matrix
  product of a block into a zero accumulator is the plain sum over the 128 features, the change of float format
  before it is the identity on the extended reals — and the blocks put together are the whole-array round. Both
  programs then apply the round six times to the input features.
-/
import proofs.«172677_j33947421507739_1_alg».proof.Defs
import proofs.«172677_j33947421507739_1_alg».proof.Proof.Gen.Kernel
import proofs.«172677_j33947421507739_1_alg».proof.Proof.Gen.Kernel.Frame
import proofs.«172677_j33947421507739_1_alg».proof.Proof.Gen.KernelIdeal
import proofs.«172677_j33947421507739_1_alg».proof.Proof.Gen.KernelIdeal.Frame
import proofs.«172677_j33947421507739_1_alg».proof.Proof.Gen.ReferenceIdeal
import proofs.«172677_j33947421507739_1_alg».proof.Proof.Gen.ReferenceIdeal.Run
import proofs.«172677_j33947421507739_1_alg».proof.Proof.Gen.ReferenceIdeal.Read
import proofs.«172677_j33947421507739_1_alg».proof.Proof.Gen.Pre_finite_inputs
import proofs.«172677_j33947421507739_1_alg».proof.Proof.KernelRun
import proofs.«172677_j33947421507739_1_alg».proof.Proof.FoldChain
import proofs.«172677_j33947421507739_1_alg».proof.Proof.RefRound
import proofs.«172677_j33947421507739_1_alg».proof.Proof.Bridge

noncomputable section

namespace Cert.Proof

open Idealize.ShloMosaic Idealize.ShloMosaic.TcCoe Idealize.SL.Sem

/-! ## The two programs' rounds, iterated -/

/-- The reference's round applied `p` times to the features `x0`. -/
def refFeat (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32) :
    ℕ → FVec Ideal Cert.ReferenceIdeal.S100000x128 .f32
  | 0 => x0
  | p + 1 => Cert.ReferenceIdeal.RefValue.roundStep x1 x2 x3 (refFeat x0 x1 x2 x3 p)

/-- The reference's result is its round applied six times. -/
theorem ref_six (x0 : FVec Ideal Cert.ReferenceIdeal.S100000x128 .f32) (x1 : IVec Cert.ReferenceIdeal.S2x1600000 32)
    (x2 : FVec Ideal Cert.ReferenceIdeal.S128x128 .f32) (x3 : FVec Ideal Cert.ReferenceIdeal.S128 .f32) :
    Cert.ReferenceIdeal.Read.val_main_v123 (F := Ideal) x0 x1 x2 x3 = refFeat x0 x1 x2 x3 6 :=
  Cert.ReferenceIdeal.RefValue.ref_value_step x0 x1 x2 x3

/-- After any number of rounds the kernel program's features are the reference's: a round of one is a round of
    the other. -/
theorem feat_eq_ref (m : (ℓ : Loc Cert.KernelIdeal.nD Cert.KernelIdeal.τ Cert.KernelIdeal.sig) → Buf (Elt Ideal) ℓ)
    (c : Dev Cert.KernelIdeal.nD) (p : ℕ) :
    Cert.KernelIdeal.Fold.feat m c p
      = refFeat (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) p := by
  induction p with
  | zero => rfl
  | succ p ih =>
    show Cert.KernelIdeal.HostFns.roundK _ _ _ _ _ (Cert.KernelIdeal.Fold.feat m c p) = Cert.ReferenceIdeal.RefValue.roundStep _ _ _ (refFeat _ _ _ _ p)
    rw [ih]
    exact Cert.Bridge.round_eq _ _ _ _

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing: the idealised kernel is the kernel's own text read on the extended reals. -/
theorem preserves : Cert.preserves_Kernel_KernelIdeal := trivial

/-- Both programs end with the input features after six rounds. -/
theorem algebraic : Cert.algebraic_KernelIdeal_ReferenceIdeal := by
  intro m ρ m' ρ' _ hagree
  refine ⟨fun c => Cert.KernelIdeal.Fold.feat m c 6, ?_, ?_⟩
  · exact (θ_run Cert.KernelIdeal.defs _ _).mono
      (fun r h c => ⟨(h c).1.trans (Cert.KernelIdeal.Fold.result_eq m ρ c), (h c).2⟩)
      (Cert.KernelIdeal.ValueRun.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v123_eq, (hagree c).1, (hagree c).2.1, (hagree c).2.2.1, (hagree c).2.2.2]
    exact (ref_six _ _ _ _).trans (feat_eq_ref m c 6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
